-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S100000x64 : Shape := ⟨2, ![100000, 64]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg10 : FVec F S64x10 .f32) (main_arg11 : FVec F S10 .f32) (main_v33 : IVec S_ 1) : IVec S_ 1 :=
  let main_v34 : FVec F S64x10 .f32 := Host.absf main_arg10
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg11
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg7 : FVec F S64x64 .f32) (main_arg8 : FVec F S64 .f32) (main_arg9 : FVec F S64x64 .f32) (main_arg10 : FVec F S64x10 .f32) (main_arg11 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg10 main_arg11 main_v33

def fn {F : FTy → Type} [FloatOps F] (main_arg0 : IVec S50000 32) (main_arg1 : IVec S2x800000 32) (main_arg2 : IVec S50000 32) (main_arg3 : FVec F S100000x64 .f32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64x10 .f32) (main_arg11 : FVec F S10 .f32) : IVec S_ 1 :=
  let main_v0 : FVec F S100000x64 .f32 := Host.absf main_arg3
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_arg10 main_arg11 main_v13 main_v16
-- ==== Kernel.lean ====
abbrev S50000 : Shape := ⟨1, ![50000]⟩
abbrev S2x800000 : Shape := ⟨2, ![2, 800000]⟩
abbrev S100000x64 : Shape := ⟨2, ![100000, 64]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩
abbrev S50000x1 : Shape := ⟨2, ![50000, 1]⟩
abbrev S50000x64 : Shape := ⟨2, ![50000, 64]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩
abbrev S1x64 : Shape := ⟨2, ![1, 64]⟩
abbrev S10000x64 : Shape := ⟨2, ![10000, 64]⟩
abbrev S512x64 : Shape := ⟨2, ![512, 64]⟩
abbrev S512x1 : Shape := ⟨2, ![512, 1]⟩
abbrev S1x10 : Shape := ⟨2, ![1, 10]⟩
abbrev S512x10 : Shape := ⟨2, ![512, 10]⟩

abbrev nBuf : Space → Nat
  | .hbm => 118
  | .vmem => 22
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000, .i32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x10, .f32⟩
  | .hbm, ⟨11, _⟩ => ⟨S10, .f32⟩
  | .hbm, ⟨12, _⟩ => ⟨S_, .i32⟩
  | .hbm, ⟨13, _⟩ => ⟨S50000, .i32⟩
  | .hbm, ⟨14, _⟩ => ⟨S50000, .i1⟩
  | .hbm, ⟨15, _⟩ => ⟨S_, .i32⟩
  | .hbm, ⟨16, _⟩ => ⟨S50000, .i32⟩
  | .hbm, ⟨17, _⟩ => ⟨S50000, .i32⟩
  | .hbm, ⟨18, _⟩ => ⟨S50000, .i32⟩
  | .hbm, ⟨19, _⟩ => ⟨S50000x1, .i32⟩
  | .hbm, ⟨20, _⟩ => ⟨S50000x64, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S_, .f32⟩
  | .hbm, ⟨39, _⟩ => ⟨S800000x1, .f32⟩
  | .hbm, ⟨40, _⟩ => ⟨S_, .f32⟩
  | .hbm, ⟨41, _⟩ => ⟨S50000x1, .f32⟩
  | .hbm, ⟨42, _⟩ => ⟨S800000x1, .i32⟩
  | .hbm, ⟨43, _⟩ => ⟨S50000x1, .f32⟩
  | .hbm, ⟨44, _⟩ => ⟨S_, .f32⟩
  | .hbm, ⟨45, _⟩ => ⟨S50000x1, .f32⟩
  | .hbm, ⟨46, _⟩ => ⟨S50000x1, .i1⟩
  | .hbm, ⟨47, _⟩ => ⟨S_, .f32⟩
  | .hbm, ⟨48, _⟩ => ⟨S50000x1, .f32⟩
  | .hbm, ⟨49, _⟩ => ⟨S50000x1, .f32⟩
  | .hbm, ⟨50, _⟩ => ⟨S50000x64, .f32⟩
  | .hbm, ⟨51, _⟩ => ⟨S50000x64, .f32⟩
  | .hbm, ⟨52, _⟩ => ⟨S_, .i32⟩
  | .hbm, ⟨53, _⟩ => ⟨S_, .f32⟩
  | .hbm, ⟨54, _⟩ => ⟨S50000x64, .i1⟩
  | .hbm, ⟨55, _⟩ => ⟨S50000x64, .f32⟩
  | .hbm, ⟨56, _⟩ => ⟨S50000x64, .f32⟩
  | .hbm, ⟨57, _⟩ => ⟨S1x64, .f32⟩
  | .hbm, ⟨58, _⟩ => ⟨S50000x64, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x64, .f32⟩
  | .hbm, ⟨68, _⟩ => ⟨S_, .f32⟩
  | .hbm, ⟨69, _⟩ => ⟨S50000x64, .f32⟩
  | .hbm, ⟨70, _⟩ => ⟨S800000x1, .i32⟩
  | .hbm, ⟨71, _⟩ => ⟨S50000x64, .f32⟩
  | .hbm, ⟨72, _⟩ => ⟨S_, .f32⟩
  | .hbm, ⟨73, _⟩ => ⟨S800000x1, .f32⟩
  | .hbm, ⟨74, _⟩ => ⟨S_, .f32⟩
  | .hbm, ⟨75, _⟩ => ⟨S50000x1, .f32⟩
  | .hbm, ⟨76, _⟩ => ⟨S800000x1, .i32⟩
  | .hbm, ⟨77, _⟩ => ⟨S50000x1, .f32⟩
  | .hbm, ⟨78, _⟩ => ⟨S_, .f32⟩
  | .hbm, ⟨79, _⟩ => ⟨S50000x1, .f32⟩
  | .hbm, ⟨80, _⟩ => ⟨S50000x1, .i1⟩
  | .hbm, ⟨81, _⟩ => ⟨S_, .f32⟩
  | .hbm, ⟨82, _⟩ => ⟨S50000x1, .f32⟩
  | .hbm, ⟨83, _⟩ => ⟨S50000x1, .f32⟩
  | .hbm, ⟨84, _⟩ => ⟨S50000x64, .f32⟩
  | .hbm, ⟨85, _⟩ => ⟨S50000x64, .f32⟩
  | .hbm, ⟨86, _⟩ => ⟨S_, .i32⟩
  | .hbm, ⟨87, _⟩ => ⟨S_, .f32⟩
  | .hbm, ⟨88, _⟩ => ⟨S50000x64, .i1⟩
  | .hbm, ⟨89, _⟩ => ⟨S50000x64, .f32⟩
  | .hbm, ⟨90, _⟩ => ⟨S50000x64, .f32⟩
  | .hbm, ⟨91, _⟩ => ⟨S1x64, .f32⟩
  | .hbm, ⟨92, _⟩ => ⟨S50000x64, .f32⟩
  | .hbm, ⟨93, _⟩ => ⟨S_, .f32⟩
  | .hbm, ⟨94, _⟩ => ⟨S512x64, .f32⟩
  | .hbm, ⟨95, _⟩ => ⟨S50000x1, .i32⟩
  | .hbm, ⟨96, _⟩ => ⟨S512x64, .f32⟩
  | .hbm, ⟨97, _⟩ => ⟨S_, .f32⟩
  | .hbm, ⟨98, _⟩ => ⟨S50000x1, .f32⟩
  | .hbm, ⟨99, _⟩ => ⟨S_, .f32⟩
  | .hbm, ⟨100, _⟩ => ⟨S512x1, .f32⟩
  | .hbm, ⟨101, _⟩ => ⟨S50000x1, .i32⟩
  | .hbm, ⟨102, _⟩ => ⟨S512x1, .f32⟩
  | .hbm, ⟨103, _⟩ => ⟨S_, .f32⟩
  | .hbm, ⟨104, _⟩ => ⟨S512x1, .f32⟩
  | .hbm, ⟨105, _⟩ => ⟨S512x1, .i1⟩
  | .hbm, ⟨106, _⟩ => ⟨S_, .f32⟩
  | .hbm, ⟨107, _⟩ => ⟨S512x1, .f32⟩
  | .hbm, ⟨108, _⟩ => ⟨S512x1, .f32⟩
  | .hbm, ⟨109, _⟩ => ⟨S512x64, .f32⟩
  | .hbm, ⟨110, _⟩ => ⟨S512x64, .f32⟩
  | .hbm, ⟨111, _⟩ => ⟨S_, .i32⟩
  | .hbm, ⟨112, _⟩ => ⟨S_, .f32⟩
  | .hbm, ⟨113, _⟩ => ⟨S512x64, .i1⟩
  | .hbm, ⟨114, _⟩ => ⟨S512x64, .f32⟩
  | .hbm, ⟨115, _⟩ => ⟨S512x64, .f32⟩
  | .hbm, ⟨116, _⟩ => ⟨S1x10, .f32⟩
  | .hbm, ⟨117, _⟩ => ⟨S512x10, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | .local _ .vmem, ⟨18, _⟩ => ⟨S512x64, .f32⟩
  | .local _ .vmem, ⟨19, _⟩ => ⟨S64x10, .f32⟩
  | .local _ .vmem, ⟨20, _⟩ => ⟨S1x10, .f32⟩
  | .local _ .vmem, ⟨21, _⟩ => ⟨S512x10, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_c_9 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_10 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_11 : Ref sig .tc := ⟨.hbm, 72, rfl⟩
abbrev main_v44 : Ref sig .tc := ⟨.hbm, 73, rfl⟩
abbrev main_cst_12 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_13 : Ref sig .tc := ⟨.hbm, 78, rfl⟩
abbrev main_v48 : Ref sig .tc := ⟨.hbm, 79, rfl⟩
abbrev main_v49 : Ref sig .tc := ⟨.hbm, 80, rfl⟩
abbrev main_cst_14 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_15 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_16 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_17 : Ref sig .tc := ⟨.hbm, 97, rfl⟩
abbrev main_v60 : Ref sig .tc := ⟨.hbm, 98, rfl⟩
abbrev main_cst_18 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_19 : Ref sig .tc := ⟨.hbm, 103, rfl⟩
abbrev main_v64 : Ref sig .tc := ⟨.hbm, 104, rfl⟩
abbrev main_v65 : Ref sig .tc := ⟨.hbm, 105, rfl⟩
abbrev main_cst_20 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_21 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S512x64 : S_.BroadcastsInDim S512x64 (![] : Fin 0 → Fin S512x64.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  shapeCasts_S10_S1x10 : S10.ShapeCasts S1x10
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  gather_S100000x64_S50000x1_S50000x64_1_0_n_n_0_1_164_wf : GatherDims.WF S100000x64 S50000x1 S50000x64 [1] [0] [] [0] [] 1 ![1, 64]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S10000x64_S64x64_S10000x64_1_0_0_1_n_n_wf : DotDims.WF S10000x64 S64x64 S10000x64 [1] [0] [0] [1] [] []
  scatter_S512x64_S50000x1_S50000x64_1_0_0_1_wf : ScatterDims.WF S512x64 S50000x1 S50000x64 [1] [0] [0] 1
  scatter_S512x1_S50000x1_S50000x1_1_0_0_1_wf : ScatterDims.WF S512x1 S50000x1 S50000x1 [1] [0] [0] 1
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .f32 = 32 ∨ (Rect.block (s := S50000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .f32 = 32 ∨ (Rect.block (s := S50000x64) S10000x64.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x64.size a ≤ S512x64.size a
  hwx2_0 : ∀ i : grid2.Coords, EltTy.bits .f32 = 32 ∨ (Rect.block (s := S512x64) S512x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x10.size a ≤ S64x10.size a
  hwx2_1 : ∀ i : grid2.Coords, EltTy.bits .f32 = 32 ∨ (Rect.block (s := S64x10) S64x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x10.size a ≤ S512x10.size a
  hwx2_3 : ∀ i : grid2.Coords, EltTy.bits .f32 = 32 ∨ (Rect.block (s := S512x10) S512x10.size (cc2_transform_3 i) (hinb2_3 i)).WholeWords (EltTy.packing .f32)

variable [Facts₀]

def gather_S100000x64_S50000x1_S50000x64_1_0_n_n_0_1_164 : GatherDims S100000x64 S50000x1 S50000x64 where
  offsetDims := [1]
  collapsedSliceDims := [0]
  operandBatchingDims := []
  startIndicesBatchingDims := []
  startIndexMap := [0]
  indexVectorDim := 1
  sliceSizes := ![1, 64]
  wf := gather_S100000x64_S50000x1_S50000x64_1_0_n_n_0_1_164_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_v31) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v54) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v70) S512x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S64x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S512x10.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000 : Shape := ⟨1, ![50000]⟩
abbrev S2x800000 : Shape := ⟨2, ![2, 800000]⟩
abbrev S100000x64 : Shape := ⟨2, ![100000, 64]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩
abbrev S50000x1 : Shape := ⟨2, ![50000, 1]⟩
abbrev S50000x64 : Shape := ⟨2, ![50000, 64]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩
abbrev S1x64 : Shape := ⟨2, ![1, 64]⟩
abbrev S512x64 : Shape := ⟨2, ![512, 64]⟩
abbrev S512x1 : Shape := ⟨2, ![512, 1]⟩
abbrev S512x10 : Shape := ⟨2, ![512, 10]⟩
abbrev S1x10 : Shape := ⟨2, ![1, 10]⟩

abbrev nBuf : Space → Nat
  | .hbm => 134
  | .vmem => 0
  | .smem => 0
  | _ => 0

abbrev hbmTy0_0 (i : Nat) : BufTy := match i % 128 with
  | 0 => ⟨S50000, .i32⟩
  | 1 => ⟨S2x800000, .i32⟩
  | 2 => ⟨S50000, .i32⟩
  | 3 => ⟨S100000x64, .f32⟩
  | 4 => ⟨S64x64, .f32⟩
  | 5 => ⟨S64, .f32⟩
  | 6 => ⟨S64x64, .f32⟩
  | 7 => ⟨S64x64, .f32⟩
  | 8 => ⟨S64, .f32⟩
  | 9 => ⟨S64x64, .f32⟩
  | 10 => ⟨S64x10, .f32⟩
  | 11 => ⟨S10, .f32⟩
  | 12 => ⟨S_, .i32⟩
  | 13 => ⟨S50000, .i32⟩
  | 14 => ⟨S50000, .i1⟩
  | 15 => ⟨S_, .i32⟩
  | 16 => ⟨S50000, .i32⟩
  | 17 => ⟨S50000, .i32⟩
  | 18 => ⟨S50000, .i32⟩
  | 19 => ⟨S50000x1, .i32⟩
  | 20 => ⟨S50000x64, .f32⟩
  | 21 => ⟨S1x800000, .i32⟩
  | 22 => ⟨S800000, .i32⟩
  | 23 => ⟨S1x800000, .i32⟩
  | 24 => ⟨S800000, .i32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x64, .f32⟩
  | 34 => ⟨S_, .f32⟩
  | 35 => ⟨S50000x64, .f32⟩
  | 36 => ⟨S800000x1, .i32⟩
  | 37 => ⟨S50000x64, .f32⟩
  | 38 => ⟨S_, .f32⟩
  | 39 => ⟨S800000x1, .f32⟩
  | 40 => ⟨S_, .f32⟩
  | 41 => ⟨S50000x1, .f32⟩
  | 42 => ⟨S800000x1, .i32⟩
  | 43 => ⟨S50000x1, .f32⟩
  | 44 => ⟨S_, .f32⟩
  | 45 => ⟨S50000x1, .f32⟩
  | 46 => ⟨S50000x1, .i1⟩
  | 47 => ⟨S_, .f32⟩
  | 48 => ⟨S50000x1, .f32⟩
  | 49 => ⟨S50000x1, .f32⟩
  | 50 => ⟨S50000x64, .f32⟩
  | 51 => ⟨S50000x64, .f32⟩
  | 52 => ⟨S_, .i32⟩
  | 53 => ⟨S_, .f32⟩
  | 54 => ⟨S50000x64, .i1⟩
  | 55 => ⟨S50000x64, .f32⟩
  | 56 => ⟨S50000x64, .f32⟩
  | 57 => ⟨S50000x64, .f32⟩
  | 58 => ⟨S1x64, .f32⟩
  | 59 => ⟨S50000x64, .f32⟩
  | 60 => ⟨S50000x64, .f32⟩
  | 61 => ⟨S50000x64, .f32⟩
  | 62 => ⟨S50000x64, .f32⟩
  | 63 => ⟨S_, .f32⟩
  | 64 => ⟨S50000x64, .f32⟩
  | 65 => ⟨S50000x64, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x64, .f32⟩
  | 75 => ⟨S_, .f32⟩
  | 76 => ⟨S50000x64, .f32⟩
  | 77 => ⟨S800000x1, .i32⟩
  | 78 => ⟨S50000x64, .f32⟩
  | 79 => ⟨S_, .f32⟩
  | 80 => ⟨S800000x1, .f32⟩
  | 81 => ⟨S_, .f32⟩
  | 82 => ⟨S50000x1, .f32⟩
  | 83 => ⟨S800000x1, .i32⟩
  | 84 => ⟨S50000x1, .f32⟩
  | 85 => ⟨S_, .f32⟩
  | 86 => ⟨S50000x1, .f32⟩
  | 87 => ⟨S50000x1, .i1⟩
  | 88 => ⟨S_, .f32⟩
  | 89 => ⟨S50000x1, .f32⟩
  | 90 => ⟨S50000x1, .f32⟩
  | 91 => ⟨S50000x64, .f32⟩
  | 92 => ⟨S50000x64, .f32⟩
  | 93 => ⟨S_, .i32⟩
  | 94 => ⟨S_, .f32⟩
  | 95 => ⟨S50000x64, .i1⟩
  | 96 => ⟨S50000x64, .f32⟩
  | 97 => ⟨S50000x64, .f32⟩
  | 98 => ⟨S50000x64, .f32⟩
  | 99 => ⟨S1x64, .f32⟩
  | 100 => ⟨S50000x64, .f32⟩
  | 101 => ⟨S50000x64, .f32⟩
  | 102 => ⟨S50000x64, .f32⟩
  | 103 => ⟨S50000x64, .f32⟩
  | 104 => ⟨S_, .f32⟩
  | 105 => ⟨S50000x64, .f32⟩
  | 106 => ⟨S50000x64, .f32⟩
  | 107 => ⟨S_, .f32⟩
  | 108 => ⟨S512x64, .f32⟩
  | 109 => ⟨S50000x1, .i32⟩
  | 110 => ⟨S512x64, .f32⟩
  | 111 => ⟨S_, .f32⟩
  | 112 => ⟨S50000x1, .f32⟩
  | 113 => ⟨S_, .f32⟩
  | 114 => ⟨S512x1, .f32⟩
  | 115 => ⟨S50000x1, .i32⟩
  | 116 => ⟨S512x1, .f32⟩
  | 117 => ⟨S_, .f32⟩
  | 118 => ⟨S512x1, .f32⟩
  | 119 => ⟨S512x1, .i1⟩
  | 120 => ⟨S_, .f32⟩
  | 121 => ⟨S512x1, .f32⟩
  | 122 => ⟨S512x1, .f32⟩
  | 123 => ⟨S512x64, .f32⟩
  | 124 => ⟨S512x64, .f32⟩
  | 125 => ⟨S_, .i32⟩
  | 126 => ⟨S_, .f32⟩
  | 127 => ⟨S512x64, .i1⟩
  | _ => ⟨S50000, .i32⟩

abbrev hbmTy0_1 (i : Nat) : BufTy := match i % 128 with
  | 0 => ⟨S512x64, .f32⟩
  | 1 => ⟨S512x64, .f32⟩
  | 2 => ⟨S512x10, .f32⟩
  | 3 => ⟨S1x10, .f32⟩
  | 4 => ⟨S512x10, .f32⟩
  | 5 => ⟨S512x10, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call1_cst : Ref sig .tc := ⟨.hbm, 63, rfl⟩
abbrev main_call1_v0 : Ref sig .tc := ⟨.hbm, 64, rfl⟩
abbrev main_v38 : Ref sig .tc := ⟨.hbm, 65, rfl⟩
abbrev main_c_8 : Ref sig .tc := ⟨.hbm, 66, rfl⟩
abbrev main_v39 : Ref sig .tc := ⟨.hbm, 67, rfl⟩
abbrev main_v40 : Ref sig .tc := ⟨.hbm, 68, rfl⟩
abbrev main_c_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_cst_12 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_13 : Ref sig .tc := ⟨.hbm, 85, rfl⟩
abbrev main_v53 : Ref sig .tc := ⟨.hbm, 86, rfl⟩
abbrev main_v54 : Ref sig .tc := ⟨.hbm, 87, rfl⟩
abbrev main_cst_14 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_15 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_call3_cst : Ref sig .tc := ⟨.hbm, 104, rfl⟩
abbrev main_call3_v0 : Ref sig .tc := ⟨.hbm, 105, rfl⟩
abbrev main_v66 : Ref sig .tc := ⟨.hbm, 106, rfl⟩
abbrev main_cst_16 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_17 : Ref sig .tc := ⟨.hbm, 111, rfl⟩
abbrev main_v70 : Ref sig .tc := ⟨.hbm, 112, rfl⟩
abbrev main_cst_18 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_19 : Ref sig .tc := ⟨.hbm, 117, rfl⟩
abbrev main_v74 : Ref sig .tc := ⟨.hbm, 118, rfl⟩
abbrev main_v75 : Ref sig .tc := ⟨.hbm, 119, rfl⟩
abbrev main_cst_20 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_21 : Ref sig .tc := ⟨.hbm, 125, rfl⟩
abbrev main_call4_v0 : Ref sig .tc := ⟨.hbm, 126, rfl⟩
abbrev main_call4_v1 : Ref sig .tc := ⟨.hbm, 127, rfl⟩
abbrev main_call4_v2 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S100000x64_S50000x1_S50000x64_1_0_n_n_0_1_164_wf : GatherDims.WF S100000x64 S50000x1 S50000x64 [1] [0] [] [0] [] 1 ![1, 64]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x64_S64x64_S50000x64_1_0_0_1_n_n_wf : DotDims.WF S50000x64 S64x64 S50000x64 [1] [0] [0] [1] [] []
  scatter_S512x64_S50000x1_S50000x64_1_0_0_1_wf : ScatterDims.WF S512x64 S50000x1 S50000x64 [1] [0] [0] 1
  scatter_S512x1_S50000x1_S50000x1_1_0_0_1_wf : ScatterDims.WF S512x1 S50000x1 S50000x1 [1] [0] [0] 1
  dot_S512x64_S64x10_S512x10_1_0_0_1_n_n_wf : DotDims.WF S512x64 S64x10 S512x10 [1] [0] [0] [1] [] []

variable [Facts₀]

def gather_S100000x64_S50000x1_S50000x64_1_0_n_n_0_1_164 : GatherDims S100000x64 S50000x1 S50000x64 where
  offsetDims := [1]
  collapsedSliceDims := [0]
  operandBatchingDims := []
  startIndicesBatchingDims := []
  startIndexMap := [0]
  indexVectorDim := 1
  sliceSizes := ![1, 64]
  wf := gather_S100000x64_S50000x1_S50000x64_1_0_n_n_0_1_164_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.GraphOps.lean ====
/-
  The host side of the graph network, as pure functions of arrays: the embedding lookup, the two rows of the edge
  list, the mean over a node's incoming neighbours, the mean over a graph's nodes, and the two dense layers in the
  form the reference computes them. Each is the composition of the host operations that compute it, written once;
  both programs apply these same operations, so each program's result is the same composition of these functions
  and nothing in them ever has to be opened to compare the two.

  `embedRows ids emb` is `emb[ids]` (an index below zero counted from the end). `edgeRow0 ei`, `edgeRow1 ei` are
  the sources and the targets of the edges. `neighbourMean x src dst` is, at node `n`, the sum over the edges `e`
  with `dst e = n` of `x[src e]`, divided by `max (their number) 1`, and `0` where there is no such edge.
  `graphMean x batch` is the same mean over the nodes of each graph. `denseRef` is
  `max ((mean·wl + b) + x·wr) 0` and `readoutRef` is `p·w + b`, the bias spread over the rows.
-/
import proofs.«127866_j88648124991032_1_alg».proof.Proof.Gen.ReferenceIdeal

noncomputable section

namespace Cert.GraphOps

open Cert.ReferenceIdeal Cert.ReferenceIdeal.Gen Idealize.ShloMosaic

variable {F : FTy → Type} [FloatOps F]

/-- `emb[ids]`: the rows of the table at the node ids, an id below zero counted from the end. -/
def embedRows (ids : (⟨S50000, .i32⟩ : BufTy).Contents (Elt F)) (emb : (⟨S100000x64, .f32⟩ : BufTy).Contents (Elt F)) : (⟨S50000x64, .f32⟩ : BufTy).Contents (Elt F) :=
  Host.gather gather_S100000x64_S50000x1_S50000x64_1_0_n_n_0_1_164 emb
    (broadcastInDim S50000x1 ![0] bcast_S50000_S50000x1_0
      (select (cmpi .slt ids (broadcastInDim S50000 ![] bcast_S_S50000 (constantI S_ 32 0#32)))
        (addi ids (broadcastInDim S50000 ![] bcast_S_S50000 (constantI S_ 32 100000#32))) ids))

/-- The edges' sources: row 0 of the edge list. -/
def edgeRow0 (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- The edges' targets: row 1 of the edge list. -/
def edgeRow1 (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- The mean of `x` over each node's incoming neighbours (`0` for a node with none): the sum of the gathered
    source rows scattered to the targets, over `max count 1`, kept where `count > 0`. -/
def neighbourMean (x : (⟨S50000x64, .f32⟩ : BufTy).Contents (Elt F)) (src dst : (⟨S800000, .i32⟩ : BufTy).Contents (Elt F)) : (⟨S50000x64, .f32⟩ : BufTy).Contents (Elt F) :=
  select
    (broadcastInDim S50000x64 ![0, 1] bcast_S50000x1_S50000x64_0_1
      (cmpf (F := F) .ogt (Host.scatterAdd scatter_S50000x1_S800000x1_S800000x1_1_0_0_1 (broadcastInDim S50000x1 ![] bcast_S_S50000x1 (constant S_ .f32 0x00000000#32)) (broadcastInDim S800000x1 ![0] bcast_S800000_S800000x1_0 dst) (broadcastInDim S800000x1 ![] bcast_S_S800000x1 (constant S_ .f32 0x3F800000#32))) (broadcastInDim S50000x1 ![] bcast_S_S50000x1 (constant S_ .f32 0x00000000#32))))
    (Host.divf
      (Host.scatterAdd scatter_S50000x64_S800000x1_S800000x64_1_0_0_1 (broadcastInDim S50000x64 ![] bcast_S_S50000x64 (constant S_ .f32 0x00000000#32))
        (broadcastInDim S800000x1 ![0] bcast_S800000_S800000x1_0 dst)
        (Host.gather gather_S50000x64_S800000x1_S800000x64_1_0_n_n_0_1_164 x
          (broadcastInDim S800000x1 ![0] bcast_S800000_S800000x1_0
            (select (cmpi .slt src (broadcastInDim S800000 ![] bcast_S_S800000 (constantI S_ 32 0#32)))
              (addi src (broadcastInDim S800000 ![] bcast_S_S800000 (constantI S_ 32 50000#32))) src))))
      (broadcastInDim S50000x64 ![0, 1] bcast_S50000x1_S50000x64_0_1
        (maximumf (Host.scatterAdd scatter_S50000x1_S800000x1_S800000x1_1_0_0_1 (broadcastInDim S50000x1 ![] bcast_S_S50000x1 (constant S_ .f32 0x00000000#32)) (broadcastInDim S800000x1 ![0] bcast_S800000_S800000x1_0 dst) (broadcastInDim S800000x1 ![] bcast_S_S800000x1 (constant S_ .f32 0x3F800000#32))) (broadcastInDim S50000x1 ![] bcast_S_S50000x1 (constant S_ .f32 0x3F800000#32)))))
    (broadcastInDim S50000x64 ![] bcast_S_S50000x64 (sitofp .f32 (constantI S_ 32 0#32)))

/-- The mean of `x` over each graph's nodes (`0` for a graph with none). -/
def graphMean (x : (⟨S50000x64, .f32⟩ : BufTy).Contents (Elt F)) (batch : (⟨S50000, .i32⟩ : BufTy).Contents (Elt F)) : (⟨S512x64, .f32⟩ : BufTy).Contents (Elt F) :=
  select
    (broadcastInDim S512x64 ![0, 1] bcast_S512x1_S512x64_0_1
      (cmpf (F := F) .ogt (Host.scatterAdd scatter_S512x1_S50000x1_S50000x1_1_0_0_1 (broadcastInDim S512x1 ![] bcast_S_S512x1 (constant S_ .f32 0x00000000#32)) (broadcastInDim S50000x1 ![0] bcast_S50000_S50000x1_0 batch) (broadcastInDim S50000x1 ![] bcast_S_S50000x1 (constant S_ .f32 0x3F800000#32))) (broadcastInDim S512x1 ![] bcast_S_S512x1 (constant S_ .f32 0x00000000#32))))
    (Host.divf
      (Host.scatterAdd scatter_S512x64_S50000x1_S50000x64_1_0_0_1 (broadcastInDim S512x64 ![] bcast_S_S512x64 (constant S_ .f32 0x00000000#32))
        (broadcastInDim S50000x1 ![0] bcast_S50000_S50000x1_0 batch) x)
      (broadcastInDim S512x64 ![0, 1] bcast_S512x1_S512x64_0_1
        (maximumf (Host.scatterAdd scatter_S512x1_S50000x1_S50000x1_1_0_0_1 (broadcastInDim S512x1 ![] bcast_S_S512x1 (constant S_ .f32 0x00000000#32)) (broadcastInDim S50000x1 ![0] bcast_S50000_S50000x1_0 batch) (broadcastInDim S50000x1 ![] bcast_S_S50000x1 (constant S_ .f32 0x3F800000#32))) (broadcastInDim S512x1 ![] bcast_S_S512x1 (constant S_ .f32 0x3F800000#32)))))
    (broadcastInDim S512x64 ![] bcast_S_S512x64 (sitofp .f32 (constantI S_ 32 0#32)))

/-- One layer's dense step as the reference computes it: `max ((mean·wl + b) + x·wr) 0`. -/
def denseRef (mean x : (⟨S50000x64, .f32⟩ : BufTy).Contents (Elt F)) (wl : (⟨S64x64, .f32⟩ : BufTy).Contents (Elt F)) (b : (⟨S64, .f32⟩ : BufTy).Contents (Elt F)) (wr : (⟨S64x64, .f32⟩ : BufTy).Contents (Elt F)) : (⟨S50000x64, .f32⟩ : BufTy).Contents (Elt F) :=
  maximumf
    (addf
      (addf (Host.dotGeneral dot_S50000x64_S64x64_S50000x64_1_0_0_1_n_n none mean wl)
        (broadcastInDim S50000x64 ![0, 1] bcast_S1x64_S50000x64_0_1 (broadcastInDim S1x64 ![1] bcast_S64_S1x64_1 b)))
      (Host.dotGeneral dot_S50000x64_S64x64_S50000x64_1_0_0_1_n_n none x wr))
    (broadcastInDim S50000x64 ![] bcast_S_S50000x64 (constant S_ .f32 0x00000000#32))

/-- The read-out as the reference computes it: `p·w + b`. -/
def readoutRef (p : (⟨S512x64, .f32⟩ : BufTy).Contents (Elt F)) (w : (⟨S64x10, .f32⟩ : BufTy).Contents (Elt F)) (b : (⟨S10, .f32⟩ : BufTy).Contents (Elt F)) : (⟨S512x10, .f32⟩ : BufTy).Contents (Elt F) :=
  addf (Host.dotGeneral dot_S512x64_S64x10_S512x10_1_0_0_1_n_n none p w)
    (broadcastInDim S512x10 ![0, 1] bcast_S1x10_S512x10_0_1 (broadcastInDim S1x10 ![1] bcast_S10_S1x10_1 b))

/-- The node features after the first layer. -/
def layerOne (ids : (⟨S50000, .i32⟩ : BufTy).Contents (Elt F)) (ei : (⟨S2x800000, .i32⟩ : BufTy).Contents (Elt F)) (emb : (⟨S100000x64, .f32⟩ : BufTy).Contents (Elt F))
    (wl0 : (⟨S64x64, .f32⟩ : BufTy).Contents (Elt F)) (b0 : (⟨S64, .f32⟩ : BufTy).Contents (Elt F)) (wr0 : (⟨S64x64, .f32⟩ : BufTy).Contents (Elt F)) : (⟨S50000x64, .f32⟩ : BufTy).Contents (Elt F) :=
  denseRef (neighbourMean (embedRows ids emb) (edgeRow0 ei) (edgeRow1 ei)) (embedRows ids emb) wl0 b0 wr0

/-- The node features after the second layer. -/
def layerTwo (ids : (⟨S50000, .i32⟩ : BufTy).Contents (Elt F)) (ei : (⟨S2x800000, .i32⟩ : BufTy).Contents (Elt F)) (emb : (⟨S100000x64, .f32⟩ : BufTy).Contents (Elt F))
    (wl0 : (⟨S64x64, .f32⟩ : BufTy).Contents (Elt F)) (b0 : (⟨S64, .f32⟩ : BufTy).Contents (Elt F)) (wr0 : (⟨S64x64, .f32⟩ : BufTy).Contents (Elt F))
    (wl1 : (⟨S64x64, .f32⟩ : BufTy).Contents (Elt F)) (b1 : (⟨S64, .f32⟩ : BufTy).Contents (Elt F)) (wr1 : (⟨S64x64, .f32⟩ : BufTy).Contents (Elt F)) : (⟨S50000x64, .f32⟩ : BufTy).Contents (Elt F) :=
  denseRef (neighbourMean (layerOne ids ei emb wl0 b0 wr0) (edgeRow0 ei) (edgeRow1 ei)) (layerOne ids ei emb wl0 b0 wr0) wl1 b1 wr1

/-- The whole network: the class scores of each graph. -/
def network (ids : (⟨S50000, .i32⟩ : BufTy).Contents (Elt F)) (ei : (⟨S2x800000, .i32⟩ : BufTy).Contents (Elt F)) (batch : (⟨S50000, .i32⟩ : BufTy).Contents (Elt F)) (emb : (⟨S100000x64, .f32⟩ : BufTy).Contents (Elt F))
    (wl0 : (⟨S64x64, .f32⟩ : BufTy).Contents (Elt F)) (b0 : (⟨S64, .f32⟩ : BufTy).Contents (Elt F)) (wr0 : (⟨S64x64, .f32⟩ : BufTy).Contents (Elt F))
    (wl1 : (⟨S64x64, .f32⟩ : BufTy).Contents (Elt F)) (b1 : (⟨S64, .f32⟩ : BufTy).Contents (Elt F)) (wr1 : (⟨S64x64, .f32⟩ : BufTy).Contents (Elt F))
    (wout : (⟨S64x10, .f32⟩ : BufTy).Contents (Elt F)) (bout : (⟨S10, .f32⟩ : BufTy).Contents (Elt F)) : (⟨S512x10, .f32⟩ : BufTy).Contents (Elt F) :=
  readoutRef (graphMean (layerTwo ids ei emb wl0 b0 wr0 wl1 b1 wr1) batch) wout bout

end Cert.GraphOps

end
-- ==== Proof.RefValue.lean ====
/-
  The reference program's result is the network function of its arguments: its composed term of host operations is,
  operation for operation, the composition of the graph functions (embedding lookup, neighbour means, the two dense
  layers, the per-graph mean, the read-out) that `network` names. Nothing is computed here: the two terms are the
  same operations applied to the same operands, so once the names are opened they are one term. The run of the
  reference, which leaves its result buffer at the composed term and its arguments unchanged, therefore leaves the
  result buffer at `network` of the arguments.
-/
import proofs.«127866_j88648124991032_1_alg».proof.Proof.RefRun
import proofs.«127866_j88648124991032_1_alg».proof.Proof.GraphOps

set_option maxRecDepth 16384

noncomputable section

namespace Cert.ReferenceIdeal.NetworkValue

open Cert.ReferenceIdeal Cert.ReferenceIdeal.Gen Cert.GraphOps
open Idealize.ShloMosaic Idealize.ShloMosaic.TcCoe Idealize.SL.Sem

variable {F : FTy → Type} [FloatOps F]

set_option maxHeartbeats 2000000 in
/-- The run's result term is `network` of the argument arrays. -/
theorem result_eq (m : (ℓ : Loc nD τ sig) → Buf (Elt F) ℓ) (c : Dev nD) :
    Cert.ReferenceIdeal.Value.res_main_v84 (F := F) m c = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.Value.res_main_v84 network readoutRef graphMean layerTwo layerOne denseRef neighbourMean embedRows edgeRow0 edgeRow1
  rfl

/-- On every device, for any float values, from any memory with zero counters: every weakly fair execution of the
    reference terminates with its result at `network` of the arguments and the arguments unchanged. -/
theorem run_network (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c).1.trans (result_eq m c), (h c).2⟩)
    (Cert.ReferenceIdeal.Value.run (F := F) m ρ)

end Cert.ReferenceIdeal.NetworkValue

end
-- ==== Proof.KernelRun.lean ====
/-
  The idealized kernel program's run with its RESULT kept. The program is three kernel regions among stretches of host
  operations; its run ends with every unscoped buffer of a device at the last boundary's contents (the contents
  after the third region's write-backs). The frame keeps of that only the twelve arguments; here the result buffer
  is kept too: it ends at the last boundary's contents at the result's reference. The launch over the segments is
  the frame's own; only the last step, which reads buffers off the final state, reads one more.
-/
import proofs.«127866_j88648124991032_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v72) = W12 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v72 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.RunValue

end
-- ==== Proof.HostStretches.lean ====
/-
  The host operations of the kernel program, stretch by stretch, as the shared pure functions of the buffers they
  read. The program runs three stretches of host operations, each before one kernel region. From ANY buffer
  contents `W` at a stretch's start, the buffers the stretch computes for its region hold, at its end, the graph
  functions of what `W` holds in the buffers the stretch reads: the first stretch computes the embedded node
  features, the two rows of the edge list, the neighbour mean of the features and the first bias as one row; the
  second the neighbour mean of the first region's result and the second bias row; the third the per-graph mean of
  the second region's result and the read-out's bias row. A buffer no operation of a stretch writes is unchanged.
-/
import proofs.«127866_j88648124991032_1_alg».proof.Proof.Gen.KernelIdeal.Launch
import proofs.«127866_j88648124991032_1_alg».proof.Proof.GraphOps
import Idealize.ShloMosaic.Lib.StableHlo.Run

set_option maxRecDepth 16384

noncomputable section

namespace Cert.KernelIdeal.Stretch

open Cert.KernelIdeal Cert.KernelIdeal.Gen Cert.GraphOps
open Idealize.ShloMosaic Idealize.ShloMosaic.TcCoe Idealize.SL.Sem Idealize.ShloMosaic.StableHlo

variable {F : FTy → Type} [FloatOps F] (W : Valuation τ sig (Elt F))

/-- The contents after the first stretch. -/
abbrev after0 : Valuation τ sig (Elt F) := after hostOps0_2 (after hostOps0_1 (after hostOps0 W))
/-- The contents after the second stretch. -/
abbrev after1 : Valuation τ sig (Elt F) := after hostOps1_2 (after hostOps1_1 (after hostOps1 W))
/-- The contents after the third stretch. -/
abbrev after2 : Valuation τ sig (Elt F) := after hostOps2_2 (after hostOps2_1 (after hostOps2 W))

/-! ## The first stretch -/

set_option maxHeartbeats 4000000 in
/-- The embedded node features. -/
theorem features0 : after0 W (Proc.devRef .tc main_v6)
    = embedRows (W (Proc.devRef .tc main_arg0)) (W (Proc.devRef .tc main_arg3)) := by
  unfold after0 hostOps0 hostOps0_1 hostOps0_2
  after_results_simp
  rfl
set_option maxHeartbeats 4000000 in
/-- The edges' sources. -/
theorem sources0 : after0 W (Proc.devRef .tc main_v8)
    = edgeRow0 (W (Proc.devRef .tc main_arg1)) := by
  unfold after0 hostOps0 hostOps0_1 hostOps0_2
  after_results_simp
  rfl
set_option maxHeartbeats 4000000 in
/-- The edges' targets. -/
theorem targets0 : after0 W (Proc.devRef .tc main_v10)
    = edgeRow1 (W (Proc.devRef .tc main_arg1)) := by
  unfold after0 hostOps0 hostOps0_1 hostOps0_2
  after_results_simp
  rfl
set_option maxHeartbeats 4000000 in
/-- The neighbour mean of the embedded features. -/
theorem mean0 : after0 W (Proc.devRef .tc main_v31)
    = neighbourMean (embedRows (W (Proc.devRef .tc main_arg0)) (W (Proc.devRef .tc main_arg3))) (edgeRow0 (W (Proc.devRef .tc main_arg1))) (edgeRow1 (W (Proc.devRef .tc main_arg1))) := by
  unfold after0 hostOps0 hostOps0_1 hostOps0_2
  after_results_simp
  rfl
set_option maxHeartbeats 4000000 in
/-- The first bias as one row. -/
theorem bias0 : after0 W (Proc.devRef .tc main_v32)
    = shapeCast S1x64 (W (Proc.devRef .tc main_arg5)) shapeCasts_S64_S1x64 := by
  unfold after0 hostOps0 hostOps0_1 hostOps0_2
  after_results_simp
  rfl
set_option maxHeartbeats 4000000 in
theorem keep0_main_arg2 : after0 W (Proc.devRef .tc main_arg2) = W (Proc.devRef .tc main_arg2) := by
  unfold after0 hostOps0 hostOps0_1 hostOps0_2
  after_results_simp
set_option maxHeartbeats 4000000 in
theorem keep0_main_arg4 : after0 W (Proc.devRef .tc main_arg4) = W (Proc.devRef .tc main_arg4) := by
  unfold after0 hostOps0 hostOps0_1 hostOps0_2
  after_results_simp
set_option maxHeartbeats 4000000 in
theorem keep0_main_arg6 : after0 W (Proc.devRef .tc main_arg6) = W (Proc.devRef .tc main_arg6) := by
  unfold after0 hostOps0 hostOps0_1 hostOps0_2
  after_results_simp
set_option maxHeartbeats 4000000 in
theorem keep0_main_arg7 : after0 W (Proc.devRef .tc main_arg7) = W (Proc.devRef .tc main_arg7) := by
  unfold after0 hostOps0 hostOps0_1 hostOps0_2
  after_results_simp
set_option maxHeartbeats 4000000 in
theorem keep0_main_arg8 : after0 W (Proc.devRef .tc main_arg8) = W (Proc.devRef .tc main_arg8) := by
  unfold after0 hostOps0 hostOps0_1 hostOps0_2
  after_results_simp
set_option maxHeartbeats 4000000 in
theorem keep0_main_arg9 : after0 W (Proc.devRef .tc main_arg9) = W (Proc.devRef .tc main_arg9) := by
  unfold after0 hostOps0 hostOps0_1 hostOps0_2
  after_results_simp
set_option maxHeartbeats 4000000 in
theorem keep0_main_arg10 : after0 W (Proc.devRef .tc main_arg10) = W (Proc.devRef .tc main_arg10) := by
  unfold after0 hostOps0 hostOps0_1 hostOps0_2
  after_results_simp
set_option maxHeartbeats 4000000 in
theorem keep0_main_arg11 : after0 W (Proc.devRef .tc main_arg11) = W (Proc.devRef .tc main_arg11) := by
  unfold after0 hostOps0 hostOps0_1 hostOps0_2
  after_results_simp

/-! ## The second stretch -/

set_option maxHeartbeats 4000000 in
/-- The neighbour mean of the first region's result. -/
theorem mean1 : after1 W (Proc.devRef .tc main_v54)
    = neighbourMean (W (Proc.devRef .tc main_v33)) (W (Proc.devRef .tc main_v8)) (W (Proc.devRef .tc main_v10)) := by
  unfold after1 hostOps1 hostOps1_1 hostOps1_2
  after_results_simp
  rfl
set_option maxHeartbeats 4000000 in
/-- The second bias as one row. -/
theorem bias1 : after1 W (Proc.devRef .tc main_v55)
    = shapeCast S1x64 (W (Proc.devRef .tc main_arg8)) shapeCasts_S64_S1x64 := by
  unfold after1 hostOps1 hostOps1_1 hostOps1_2
  after_results_simp
  rfl
set_option maxHeartbeats 4000000 in
theorem keep1_main_v33 : after1 W (Proc.devRef .tc main_v33) = W (Proc.devRef .tc main_v33) := by
  unfold after1 hostOps1 hostOps1_1 hostOps1_2
  after_results_simp
set_option maxHeartbeats 4000000 in
theorem keep1_main_arg2 : after1 W (Proc.devRef .tc main_arg2) = W (Proc.devRef .tc main_arg2) := by
  unfold after1 hostOps1 hostOps1_1 hostOps1_2
  after_results_simp
set_option maxHeartbeats 4000000 in
theorem keep1_main_arg7 : after1 W (Proc.devRef .tc main_arg7) = W (Proc.devRef .tc main_arg7) := by
  unfold after1 hostOps1 hostOps1_1 hostOps1_2
  after_results_simp
set_option maxHeartbeats 4000000 in
theorem keep1_main_arg9 : after1 W (Proc.devRef .tc main_arg9) = W (Proc.devRef .tc main_arg9) := by
  unfold after1 hostOps1 hostOps1_1 hostOps1_2
  after_results_simp
set_option maxHeartbeats 4000000 in
theorem keep1_main_arg10 : after1 W (Proc.devRef .tc main_arg10) = W (Proc.devRef .tc main_arg10) := by
  unfold after1 hostOps1 hostOps1_1 hostOps1_2
  after_results_simp
set_option maxHeartbeats 4000000 in
theorem keep1_main_arg11 : after1 W (Proc.devRef .tc main_arg11) = W (Proc.devRef .tc main_arg11) := by
  unfold after1 hostOps1 hostOps1_1 hostOps1_2
  after_results_simp

/-! ## The third stretch -/

set_option maxHeartbeats 4000000 in
/-- The per-graph mean of the second region's result. -/
theorem mean2 : after2 W (Proc.devRef .tc main_v70)
    = graphMean (W (Proc.devRef .tc main_v56)) (W (Proc.devRef .tc main_arg2)) := by
  unfold after2 hostOps2 hostOps2_1 hostOps2_2
  after_results_simp
  rfl
set_option maxHeartbeats 4000000 in
/-- The read-out's bias as one row. -/
theorem bias2 : after2 W (Proc.devRef .tc main_v71)
    = shapeCast S1x10 (W (Proc.devRef .tc main_arg11)) shapeCasts_S10_S1x10 := by
  unfold after2 hostOps2 hostOps2_1 hostOps2_2
  after_results_simp
  rfl
set_option maxHeartbeats 4000000 in
theorem keep2_main_arg10 : after2 W (Proc.devRef .tc main_arg10) = W (Proc.devRef .tc main_arg10) := by
  unfold after2 hostOps2 hostOps2_1 hostOps2_2
  after_results_simp

end Cert.KernelIdeal.Stretch

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«127866_j88648124991032_1_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.Layers.lean ====
/-
  The two dense layers of the graph network, as functions on the extended reals.

  `sage mean x wl wr b` is one message-passing layer's dense step: the entry `(r, c)` is
  `max ((∑ₖ mean (r, k) · wl (k, c) + b (0, c)) + ∑ₖ x (r, k) · wr (k, c)) 0` — the aggregated neighbourhood times
  its weight, plus the bias row, plus the node's own features times their weight, clipped below at zero.
  `head p w b` is the read-out: `∑ₖ p (r, k) · w (k, c) + b (0, c)`. The bias is a one-row matrix; row `r` of
  the result depends on row `r` of `mean`, `x` (or `p`) only, which is what lets a block of rows be computed from
  the same block of rows of the operands.
-/
import proofs.«127866_j88648124991032_1_alg».proof.Proof.LibRowsTimes

noncomputable section

namespace Cert.Layers

open Idealize.ShloMosaic Idealize.ShloMosaic.ValueIdx Idealize.ShloMosaic.RowsTimes

/-- One layer's dense step: `max ((mean·wl + b) + x·wr) 0`, entry by entry, the bias `b` one row. -/
def sage {M K N : Nat} (mean x : (⟨2, ![M, K]⟩ : Shape).Idx → EReal) (wl wr : (⟨2, ![K, N]⟩ : Shape).Idx → EReal)
    (b : (⟨2, ![1, N]⟩ : Shape).Idx → EReal) : (⟨2, ![M, N]⟩ : Shape).Idx → EReal :=
  fun i => max ((rowsTimes mean wl i + b (ix2 (0 : Fin 1) (i 1))) + rowsTimes x wr i) 0

theorem sage_apply {M K N : Nat} (mean x : (⟨2, ![M, K]⟩ : Shape).Idx → EReal) (wl wr : (⟨2, ![K, N]⟩ : Shape).Idx → EReal)
    (b : (⟨2, ![1, N]⟩ : Shape).Idx → EReal) (r : Fin M) (c : Fin N) :
    sage mean x wl wr b (ix2 r c)
      = max (((∑ k : Fin K, mean (ix2 r k) * wl (ix2 k c)) + b (ix2 (0 : Fin 1) c))
          + ∑ k : Fin K, x (ix2 r k) * wr (ix2 k c)) 0 := rfl

/-- The read-out: `p·w + b`, entry by entry, the bias `b` one row. -/
def head {M K N : Nat} (p : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => rowsTimes p w i + b (ix2 (0 : Fin 1) (i 1))

theorem head_apply {M K N : Nat} (p : (⟨2, ![M, K]⟩ : Shape).Idx → EReal) (w : (⟨2, ![K, N]⟩ : Shape).Idx → EReal)
    (b : (⟨2, ![1, N]⟩ : Shape).Idx → EReal) (r : Fin M) (c : Fin N) :
    head p w b (ix2 r c) = (∑ k : Fin K, p (ix2 r k) * w (ix2 k c)) + b (ix2 (0 : Fin 1) c) := rfl

end Cert.Layers

end
-- ==== Proof.PayloadValue.lean ====
/-
  The three kernel bodies' stored values, as the dense layers of `Cert.Layers`.

  Each body rounds its operands to the matrix unit's input format (the identity on the extended reals), multiplies
  them into a zero accumulator (the plain sum of products), adds the bias row broadcast over the rows and, for the
  two message-passing layers, clips below at zero. Read at an entry `(p, q)` this is the layer's entry: the
  message-passing body adds the bias AFTER both products where `sage` adds it between them, which is the same
  sum on the extended reals (addition there is commutative and associative without any finiteness).
-/
import proofs.«127866_j88648124991032_1_alg».proof.Proof.Gen.KernelIdeal.Skeleton
import proofs.«127866_j88648124991032_1_alg».proof.Proof.Layers
import proofs.«127866_j88648124991032_1_alg».proof.Proof.LibRowsTimes
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx

/-- A message-passing body's stored value at an entry, over variables: the two products, then the bias row, clipped. -/
theorem combine_entry (v0 v3 : FVec Ideal S10000x64 .f32) (v6 v8 : FVec Ideal S64x64 .f32) (v13 : FVec Ideal S1x64 .f32)
    (p : Fin 10000) (q : Fin 64) :
    max (((FloatOps.matmul dot_S10000x64_S64x64_S10000x64_1_0_0_1_n_n none
              (truncf .bf16 (shapeCast S10000x64 v0 shapeCasts_S10000x64_S10000x64) bitsLt_bf16_f32)
              (truncf .bf16 v6 bitsLt_bf16_f32) (constant S10000x64 .f32 0x00000000#32) : FVec Ideal S10000x64 .f32) (ix2 p q)
          + (FloatOps.matmul dot_S10000x64_S64x64_S10000x64_1_0_0_1_n_n none
              (truncf .bf16 (shapeCast S10000x64 v3 shapeCasts_S10000x64_S10000x64) bitsLt_bf16_f32)
              (truncf .bf16 v8 bitsLt_bf16_f32) (constant S10000x64 .f32 0x00000000#32) : FVec Ideal S10000x64 .f32) (ix2 p q))
        + broadcastTo S10000x64 (shapeCast S1x64 v13 shapeCasts_S1x64_S1x64) broadcasts_S1x64_S10000x64 (ix2 p q))
      (Ideal.ofBits .f32 0x00000000#32)
      = Cert.Layers.sage v0 v3 v6 v8 v13 (ix2 p q) := by
  rw [Cert.Layers.sage_apply, Ideal.ofBits_zero_f32]
  refine congrArg (fun z => max z (0 : EReal)) ?_
  have e0 := RowsTimes.matmul_zero_apply dot_S10000x64_S64x64_S10000x64_1_0_0_1_n_n rfl rfl rfl rfl rfl rfl rfl rfl none
    (truncf .bf16 (shapeCast S10000x64 v0 shapeCasts_S10000x64_S10000x64) bitsLt_bf16_f32 : FVec Ideal S10000x64 .bf16)
    (truncf .bf16 v6 bitsLt_bf16_f32 : FVec Ideal S64x64 .bf16) p q
  have e1 := RowsTimes.matmul_zero_apply dot_S10000x64_S64x64_S10000x64_1_0_0_1_n_n rfl rfl rfl rfl rfl rfl rfl rfl none
    (truncf .bf16 (shapeCast S10000x64 v3 shapeCasts_S10000x64_S10000x64) bitsLt_bf16_f32 : FVec Ideal S10000x64 .bf16)
    (truncf .bf16 v8 bitsLt_bf16_f32 : FVec Ideal S64x64 .bf16) p q
  have e2 := broadcastTo_1b_ab_apply (shapeCast S1x64 v13 shapeCasts_S1x64_S1x64) broadcasts_S1x64_S10000x64 p q
  rw [shapeCast_self v0, shapeCast_self v3, shapeCast_self v13]
  rw [shapeCast_self] at e0 e1 e2
  refine (congrArg₂ (· + ·) (congrArg₂ (· + ·) e0 e1) e2).trans ?_
  exact add_right_comm _ _ _

/-- The first message-passing body's stored value IS the layer of its five loaded blocks. -/
theorem pay0_eq (v0 v3 : Vec Ideal S10000x64 .f32) (v6 v8 : Vec Ideal S64x64 .f32) (v13 : Vec Ideal S1x64 .f32) :
    k0_pay1 (F := Ideal) v0 v3 v6 v8 v13 = Cert.Layers.sage v0 v3 v6 v8 v13 := by
  funext j
  obtain ⟨p, q, rfl⟩ : ∃ (p : Fin 10000) (q : Fin 64), j = ix2 p q := ⟨j 0, j 1, eq_ix2 j⟩
  unfold k0_pay1
  exact combine_entry v0 v3 v6 v8 v13 p q

/-- The second message-passing body's stored value IS the layer of its five loaded blocks. -/
theorem pay1_eq (v0 v3 : Vec Ideal S10000x64 .f32) (v6 v8 : Vec Ideal S64x64 .f32) (v13 : Vec Ideal S1x64 .f32) :
    k1_pay1 (F := Ideal) v0 v3 v6 v8 v13 = Cert.Layers.sage v0 v3 v6 v8 v13 := by
  funext j
  obtain ⟨p, q, rfl⟩ : ∃ (p : Fin 10000) (q : Fin 64), j = ix2 p q := ⟨j 0, j 1, eq_ix2 j⟩
  unfold k1_pay1
  exact combine_entry v0 v3 v6 v8 v13 p q

/-- The read-out body's stored value IS the read-out of its three loaded blocks. -/
theorem pay2_eq (v0 : Vec Ideal S512x64 .f32) (v3 : Vec Ideal S64x10 .f32) (v6 : Vec Ideal S1x10 .f32) :
    k2_pay1 (F := Ideal) v0 v3 v6 = Cert.Layers.head v0 v3 v6 := by
  funext j
  obtain ⟨p, q, rfl⟩ : ∃ (p : Fin 512) (q : Fin 10), j = ix2 p q := ⟨j 0, j 1, eq_ix2 j⟩
  unfold k2_pay1
  rw [Cert.Layers.head_apply]
  have e0 := RowsTimes.matmul_zero_apply dot_S512x64_S64x10_S512x10_1_0_0_1_n_n rfl rfl rfl rfl rfl rfl rfl rfl none
    (truncf .bf16 (shapeCast S512x64 v0 shapeCasts_S512x64_S512x64) bitsLt_bf16_f32 : FVec Ideal S512x64 .bf16)
    (truncf .bf16 v3 bitsLt_bf16_f32 : FVec Ideal S64x10 .bf16) p q
  have e2 := broadcastTo_1b_ab_apply (shapeCast S1x10 v6 shapeCasts_S1x10_S1x10) broadcasts_S1x10_S512x10 p q
  rw [shapeCast_self v0, shapeCast_self v6]
  rw [shapeCast_self] at e0 e2
  exact congrArg₂ (· + ·) e0 e2

end Cert.KernelIdeal.RegionValue

end
-- ==== Proof.Region0Value.lean ====
/-
  The first message-passing region: its output array after the region, as ONE function of the operand arrays
  when the region is entered.

  The grid has five points; point `t` works on rows `10000·t … 10000·t + 9999`: the aggregated-neighbourhood
  block, the node-feature block and the output block all sit at block index `(t, 0)`, while the two weight matrices
  and the bias row are whole (block index `(0, 0)`). An entry `(p, k)` of a row block is the entry
  `(10000·b + p, k)` of its array, `b` the output's block index at the point; a row of the layer depends on that row of
  the two row operands only, so what a point writes back is its block of the layer of the whole arrays; the five
  blocks cover the 50000 rows (row `r` is in block `r / 10000`).
-/
import proofs.«127866_j88648124991032_1_alg».proof.Proof.Gen.KernelIdeal.Frame
import proofs.«127866_j88648124991032_1_alg».proof.Proof.PayloadValue

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem sage0_zeros : (![0, 0] : Fin 2 → Nat) = fun _ => 0 := funext fun a => by fin_cases a <;> rfl

/-- The printed index maps of the region, decided over its grid: the two row operands move with the output's row
    block, the weights and the bias row stay at block zero, and the output's row-block index is at most 4. -/
theorem sage0_index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 4 ∧ win0_5.index t (1 : Fin 2) = 0 :=
  (by decide +kernel : ∀ t : Fin grid0.N, _)

/-- Every row block of the output is SOME point's. -/
theorem sage0_index_onto : ∀ b : Fin 5, ∃ t : Fin cfg0.N, win0_5.index t = ![b.val, 0] :=
  (by decide +kernel : ∀ b : Fin 5, ∃ t : Fin grid0.N, win0_5.index t = ![b.val, 0])

/-- An entry of the aggregated-neighbourhood block is the entry of its array in the point's rows. -/
theorem sage0_block_mean (c : Dev nD) (t : Fin cfg0.N) (p : Fin 10000) (k : Fin 64) (r : Fin 50000)
    (hr : r.val = win0_5.index t (0 : Fin 2) * 10000 + p.val) :
    iblk0 V c 0 t (ix2 p k) = V c main_v31 (ix2 r k) := by
  obtain ⟨e0, e1, -⟩ := sage0_index_facts t
  unfold iblk0
  show V c main_v31 (((cfg0.win 0).blk t).view.emb (ix2 p k)) = V c main_v31 (ix2 r k)
  refine congrArg (V c main_v31) (funext fun a => Fin.ext ?_)
  match a with
  | ⟨0, _⟩ => show win0_0.index t (0 : Fin 2) * 10000 + 1 * p.val = r.val; omega
  | ⟨1, _⟩ => show win0_0.index t (1 : Fin 2) * 64 + 1 * k.val = k.val; omega

/-- An entry of the node-feature block is the entry of its array in the point's rows. -/
theorem sage0_block_x (c : Dev nD) (t : Fin cfg0.N) (p : Fin 10000) (k : Fin 64) (r : Fin 50000)
    (hr : r.val = win0_5.index t (0 : Fin 2) * 10000 + p.val) :
    iblk0 V c 1 t (ix2 p k) = V c main_v6 (ix2 r k) := by
  obtain ⟨-, -, e0, e1, -⟩ := sage0_index_facts t
  unfold iblk0
  show V c main_v6 (((cfg0.win 1).blk t).view.emb (ix2 p k)) = V c main_v6 (ix2 r k)
  refine congrArg (V c main_v6) (funext fun a => Fin.ext ?_)
  match a with
  | ⟨0, _⟩ => show win0_1.index t (0 : Fin 2) * 10000 + 1 * p.val = r.val; omega
  | ⟨1, _⟩ => show win0_1.index t (1 : Fin 2) * 64 + 1 * k.val = k.val; omega

/-- An entry of the neighbourhood weight's block is the same entry of its array. -/
theorem sage0_block_wl (c : Dev nD) (t : Fin cfg0.N) (k : Fin 64) (q : Fin 64) :
    iblk0 V c 2 t (ix2 k q) = V c main_arg4 (ix2 k q) := by
  obtain ⟨-, -, -, -, e0, e1, -⟩ := sage0_index_facts t
  unfold iblk0
  show V c main_arg4 (((cfg0.win 2).blk t).view.emb (ix2 k q)) = V c main_arg4 (ix2 k q)
  refine congrArg (V c main_arg4) (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

/-- An entry of the bias row's block is the same entry of its array. -/
theorem sage0_block_bias (c : Dev nD) (t : Fin cfg0.N) (z : Fin 1) (q : Fin 64) :
    iblk0 V c 3 t (ix2 z q) = V c main_v32 (ix2 z q) := by
  obtain ⟨-, -, -, -, -, -, e0, e1, -⟩ := sage0_index_facts t
  unfold iblk0
  show V c main_v32 (((cfg0.win 3).blk t).view.emb (ix2 z q)) = V c main_v32 (ix2 z q)
  refine congrArg (V c main_v32) (funext fun a => Fin.ext ?_)
  match a with
  | ⟨0, _⟩ => show win0_3.index t (0 : Fin 2) * 1 + 1 * z.val = z.val; omega
  | ⟨1, _⟩ => show win0_3.index t (1 : Fin 2) * 64 + 1 * q.val = q.val; omega

/-- An entry of the node weight's block is the same entry of its array. -/
theorem sage0_block_wr (c : Dev nD) (t : Fin cfg0.N) (k : Fin 64) (q : Fin 64) :
    iblk0 V c 4 t (ix2 k q) = V c main_arg6 (ix2 k q) := by
  obtain ⟨-, -, -, -, -, -, -, -, e0, e1, -⟩ := sage0_index_facts t
  unfold iblk0
  show V c main_arg6 (((cfg0.win 4).blk t).view.emb (ix2 k q)) = V c main_arg6 (ix2 k q)
  refine congrArg (V c main_arg6) (funext fun a => Fin.ext ?_)
  match a with
  | ⟨0, _⟩ => show win0_4.index t (0 : Fin 2) * 64 + 1 * k.val = k.val; omega
  | ⟨1, _⟩ => show win0_4.index t (1 : Fin 2) * 64 + 1 * q.val = q.val; omega

/-- The output's block read off an array: an entry of the block is the array's entry in the point's rows. -/
theorem sage0_block_out (G : S50000x64.Idx → EReal) (t : Fin cfg0.N) (p : Fin 10000) (q : Fin 64) (r : Fin 50000)
    (hr : r.val = win0_5.index t (0 : Fin 2) * 10000 + p.val) :
    ((cfg0.win 5).blk t).view.read (Elt Ideal) G (ix2 p q) = G (ix2 r q) := by
  obtain ⟨-, -, -, -, -, -, -, -, -, -, e0, e1⟩ := sage0_index_facts t
  show G (((cfg0.win 5).blk t).view.emb (ix2 p q)) = G (ix2 r q)
  refine congrArg G (funext fun a => Fin.ext ?_)
  match a with
  | ⟨0, _⟩ => show win0_5.index t (0 : Fin 2) * 10000 + 1 * p.val = r.val; omega
  | ⟨1, _⟩ => show win0_5.index t (1 : Fin 2) * 64 + 1 * q.val = q.val; omega

/-- WHAT POINT `t` WRITES BACK is its block of the layer of the operand arrays as the region finds them. -/
theorem sage0_flushed (c : Dev nD) (t : Fin cfg0.N) :
    (dat0 (F := Ideal) V c).flushed 5 t
      = ((cfg0.win 5).blk t).view.read (Elt Ideal)
          (Cert.Layers.sage (V c main_v31) (V c main_v6) (V c main_arg4) (V c main_arg6) (V c main_v32)) := by
  show (cfg0.win 5).cut (grid0.coords t) ((dat0 V c).after 5 t) = _
  rw [after0_5]
  unfold out0_5
  rw [View.canon_unit_zero sage0_zeros]
  simp only [View.ld_unit_zero (S := S10000x64) sage0_zeros, View.ld_unit_zero (S := S64x64) sage0_zeros,
    View.ld_unit_zero (S := S1x64) sage0_zeros]
  rw [pay0_eq]
  funext y
  obtain ⟨p, q, rfl⟩ : ∃ (p : Fin 10000) (q : Fin 64), y = ix2 p q := ⟨y 0, y 1, eq_ix2 y⟩
  have hb : win0_5.index t (0 : Fin 2) ≤ 4 := (sage0_index_facts t).2.2.2.2.2.2.2.2.2.2.1
  have hp : p.val < 10000 := p.isLt
  obtain ⟨r, hr⟩ : ∃ r : Fin 50000, r.val = win0_5.index t (0 : Fin 2) * 10000 + p.val :=
    ⟨⟨win0_5.index t (0 : Fin 2) * 10000 + p.val, by omega⟩, rfl⟩
  show Cert.Layers.sage (iblk0 V c 0 t) (iblk0 V c 1 t) (iblk0 V c 2 t) (iblk0 V c 4 t) (iblk0 V c 3 t) (ix2 p q) = _
  rw [sage0_block_out _ t p q r hr, Cert.Layers.sage_apply, Cert.Layers.sage_apply, sage0_block_bias]
  refine congrArg (fun z => max z (0 : EReal)) ?_
  refine congrArg₂ (· + ·) (congrArg (· + V c main_v32 (ix2 (0 : Fin 1) q)) ?_) ?_
  · exact Finset.sum_congr rfl fun k _ => by rw [sage0_block_mean V c t p k r hr, sage0_block_wl]
  · exact Finset.sum_congr rfl fun k _ => by rw [sage0_block_x V c t p k r hr, sage0_block_wr]

/-- An index of the output array is in point `t`'s block iff each coordinate is in the block's range on its axis. -/
theorem sage0_mem_block (t : Fin cfg0.N) (i : S50000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v33).slice (win0_5.rect t)).set ↔ _
  rw [View.set_slice_whole, Rect.mem_set_unit]
  exact Iff.rfl

/-- The five points' blocks cover the output array: row `r` is in the block of index `r / 10000`. -/
theorem sage0_cover (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := sage0_index_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [sage0_mem_block]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE OUTPUT ARRAY after the region: the layer of the operand arrays as the region finds them. -/
theorem region0_array (c : Dev nD) :
    (dat0 (F := Ideal) V c).arrAt 5 cfg0.N
      = Cert.Layers.sage (V c main_v31) (V c main_v6) (V c main_arg4) (V c main_arg6) (V c main_v32) :=
  (dat0 (F := Ideal) V c).arrAt_eq_of_cover 5 _ (fun t _ => sage0_flushed V c t) sage0_cover

end Cert.KernelIdeal.RegionValue

end
-- ==== Proof.Region1Value.lean ====
/-
  The second message-passing region: its output array after the region, as ONE function of the operand arrays
  when the region is entered.

  The grid has five points; point `t` works on rows `10000·t … 10000·t + 9999`: the aggregated-neighbourhood
  block, the node-feature block and the output block all sit at block index `(t, 0)`, while the two weight matrices
  and the bias row are whole (block index `(0, 0)`). An entry `(p, k)` of a row block is the entry
  `(10000·b + p, k)` of its array, `b` the output's block index at the point; a row of the layer depends on that row of
  the two row operands only, so what a point writes back is its block of the layer of the whole arrays; the five
  blocks cover the 50000 rows (row `r` is in block `r / 10000`).
-/
import proofs.«127866_j88648124991032_1_alg».proof.Proof.Gen.KernelIdeal.Frame
import proofs.«127866_j88648124991032_1_alg».proof.Proof.PayloadValue

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem sage1_zeros : (![0, 0] : Fin 2 → Nat) = fun _ => 0 := funext fun a => by fin_cases a <;> rfl

/-- The printed index maps of the region, decided over its grid: the two row operands move with the output's row
    block, the weights and the bias row stay at block zero, and the output's row-block index is at most 4. -/
theorem sage1_index_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 4 ∧ win1_5.index t (1 : Fin 2) = 0 :=
  (by decide +kernel : ∀ t : Fin grid1.N, _)

/-- Every row block of the output is SOME point's. -/
theorem sage1_index_onto : ∀ b : Fin 5, ∃ t : Fin cfg1.N, win1_5.index t = ![b.val, 0] :=
  (by decide +kernel : ∀ b : Fin 5, ∃ t : Fin grid1.N, win1_5.index t = ![b.val, 0])

/-- An entry of the aggregated-neighbourhood block is the entry of its array in the point's rows. -/
theorem sage1_block_mean (c : Dev nD) (t : Fin cfg1.N) (p : Fin 10000) (k : Fin 64) (r : Fin 50000)
    (hr : r.val = win1_5.index t (0 : Fin 2) * 10000 + p.val) :
    iblk1 V c 0 t (ix2 p k) = V c main_v54 (ix2 r k) := by
  obtain ⟨e0, e1, -⟩ := sage1_index_facts t
  unfold iblk1
  show V c main_v54 (((cfg1.win 0).blk t).view.emb (ix2 p k)) = V c main_v54 (ix2 r k)
  refine congrArg (V c main_v54) (funext fun a => Fin.ext ?_)
  match a with
  | ⟨0, _⟩ => show win1_0.index t (0 : Fin 2) * 10000 + 1 * p.val = r.val; omega
  | ⟨1, _⟩ => show win1_0.index t (1 : Fin 2) * 64 + 1 * k.val = k.val; omega

/-- An entry of the node-feature block is the entry of its array in the point's rows. -/
theorem sage1_block_x (c : Dev nD) (t : Fin cfg1.N) (p : Fin 10000) (k : Fin 64) (r : Fin 50000)
    (hr : r.val = win1_5.index t (0 : Fin 2) * 10000 + p.val) :
    iblk1 V c 1 t (ix2 p k) = V c main_v33 (ix2 r k) := by
  obtain ⟨-, -, e0, e1, -⟩ := sage1_index_facts t
  unfold iblk1
  show V c main_v33 (((cfg1.win 1).blk t).view.emb (ix2 p k)) = V c main_v33 (ix2 r k)
  refine congrArg (V c main_v33) (funext fun a => Fin.ext ?_)
  match a with
  | ⟨0, _⟩ => show win1_1.index t (0 : Fin 2) * 10000 + 1 * p.val = r.val; omega
  | ⟨1, _⟩ => show win1_1.index t (1 : Fin 2) * 64 + 1 * k.val = k.val; omega

/-- An entry of the neighbourhood weight's block is the same entry of its array. -/
theorem sage1_block_wl (c : Dev nD) (t : Fin cfg1.N) (k : Fin 64) (q : Fin 64) :
    iblk1 V c 2 t (ix2 k q) = V c main_arg7 (ix2 k q) := by
  obtain ⟨-, -, -, -, e0, e1, -⟩ := sage1_index_facts t
  unfold iblk1
  show V c main_arg7 (((cfg1.win 2).blk t).view.emb (ix2 k q)) = V c main_arg7 (ix2 k q)
  refine congrArg (V c main_arg7) (funext fun a => Fin.ext ?_)
  match a with
  | ⟨0, _⟩ => show win1_2.index t (0 : Fin 2) * 64 + 1 * k.val = k.val; omega
  | ⟨1, _⟩ => show win1_2.index t (1 : Fin 2) * 64 + 1 * q.val = q.val; omega

/-- An entry of the bias row's block is the same entry of its array. -/
theorem sage1_block_bias (c : Dev nD) (t : Fin cfg1.N) (z : Fin 1) (q : Fin 64) :
    iblk1 V c 3 t (ix2 z q) = V c main_v55 (ix2 z q) := by
  obtain ⟨-, -, -, -, -, -, e0, e1, -⟩ := sage1_index_facts t
  unfold iblk1
  show V c main_v55 (((cfg1.win 3).blk t).view.emb (ix2 z q)) = V c main_v55 (ix2 z q)
  refine congrArg (V c main_v55) (funext fun a => Fin.ext ?_)
  match a with
  | ⟨0, _⟩ => show win1_3.index t (0 : Fin 2) * 1 + 1 * z.val = z.val; omega
  | ⟨1, _⟩ => show win1_3.index t (1 : Fin 2) * 64 + 1 * q.val = q.val; omega

/-- An entry of the node weight's block is the same entry of its array. -/
theorem sage1_block_wr (c : Dev nD) (t : Fin cfg1.N) (k : Fin 64) (q : Fin 64) :
    iblk1 V c 4 t (ix2 k q) = V c main_arg9 (ix2 k q) := by
  obtain ⟨-, -, -, -, -, -, -, -, e0, e1, -⟩ := sage1_index_facts t
  unfold iblk1
  show V c main_arg9 (((cfg1.win 4).blk t).view.emb (ix2 k q)) = V c main_arg9 (ix2 k q)
  refine congrArg (V c main_arg9) (funext fun a => Fin.ext ?_)
  match a with
  | ⟨0, _⟩ => show win1_4.index t (0 : Fin 2) * 64 + 1 * k.val = k.val; omega
  | ⟨1, _⟩ => show win1_4.index t (1 : Fin 2) * 64 + 1 * q.val = q.val; omega

/-- The output's block read off an array: an entry of the block is the array's entry in the point's rows. -/
theorem sage1_block_out (G : S50000x64.Idx → EReal) (t : Fin cfg1.N) (p : Fin 10000) (q : Fin 64) (r : Fin 50000)
    (hr : r.val = win1_5.index t (0 : Fin 2) * 10000 + p.val) :
    ((cfg1.win 5).blk t).view.read (Elt Ideal) G (ix2 p q) = G (ix2 r q) := by
  obtain ⟨-, -, -, -, -, -, -, -, -, -, e0, e1⟩ := sage1_index_facts t
  show G (((cfg1.win 5).blk t).view.emb (ix2 p q)) = G (ix2 r q)
  refine congrArg G (funext fun a => Fin.ext ?_)
  match a with
  | ⟨0, _⟩ => show win1_5.index t (0 : Fin 2) * 10000 + 1 * p.val = r.val; omega
  | ⟨1, _⟩ => show win1_5.index t (1 : Fin 2) * 64 + 1 * q.val = q.val; omega

/-- WHAT POINT `t` WRITES BACK is its block of the layer of the operand arrays as the region finds them. -/
theorem sage1_flushed (c : Dev nD) (t : Fin cfg1.N) :
    (dat1 (F := Ideal) V c).flushed 5 t
      = ((cfg1.win 5).blk t).view.read (Elt Ideal)
          (Cert.Layers.sage (V c main_v54) (V c main_v33) (V c main_arg7) (V c main_arg9) (V c main_v55)) := by
  show (cfg1.win 5).cut (grid1.coords t) ((dat1 V c).after 5 t) = _
  rw [after1_5]
  unfold out1_5
  rw [View.canon_unit_zero sage1_zeros]
  simp only [View.ld_unit_zero (S := S10000x64) sage1_zeros, View.ld_unit_zero (S := S64x64) sage1_zeros,
    View.ld_unit_zero (S := S1x64) sage1_zeros]
  rw [pay1_eq]
  funext y
  obtain ⟨p, q, rfl⟩ : ∃ (p : Fin 10000) (q : Fin 64), y = ix2 p q := ⟨y 0, y 1, eq_ix2 y⟩
  have hb : win1_5.index t (0 : Fin 2) ≤ 4 := (sage1_index_facts t).2.2.2.2.2.2.2.2.2.2.1
  have hp : p.val < 10000 := p.isLt
  obtain ⟨r, hr⟩ : ∃ r : Fin 50000, r.val = win1_5.index t (0 : Fin 2) * 10000 + p.val :=
    ⟨⟨win1_5.index t (0 : Fin 2) * 10000 + p.val, by omega⟩, rfl⟩
  show Cert.Layers.sage (iblk1 V c 0 t) (iblk1 V c 1 t) (iblk1 V c 2 t) (iblk1 V c 4 t) (iblk1 V c 3 t) (ix2 p q) = _
  rw [sage1_block_out _ t p q r hr, Cert.Layers.sage_apply, Cert.Layers.sage_apply, sage1_block_bias]
  refine congrArg (fun z => max z (0 : EReal)) ?_
  refine congrArg₂ (· + ·) (congrArg (· + V c main_v55 (ix2 (0 : Fin 1) q)) ?_) ?_
  · exact Finset.sum_congr rfl fun k _ => by rw [sage1_block_mean V c t p k r hr, sage1_block_wl]
  · exact Finset.sum_congr rfl fun k _ => by rw [sage1_block_x V c t p k r hr, sage1_block_wr]

/-- An index of the output array is in point `t`'s block iff each coordinate is in the block's range on its axis. -/
theorem sage1_mem_block (t : Fin cfg1.N) (i : S50000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v56).slice (win1_5.rect t)).set ↔ _
  rw [View.set_slice_whole, Rect.mem_set_unit]
  exact Iff.rfl

/-- The five points' blocks cover the output array: row `r` is in the block of index `r / 10000`. -/
theorem sage1_cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := sage1_index_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [sage1_mem_block]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- THE OUTPUT ARRAY after the region: the layer of the operand arrays as the region finds them. -/
theorem region1_array (c : Dev nD) :
    (dat1 (F := Ideal) V c).arrAt 5 cfg1.N
      = Cert.Layers.sage (V c main_v54) (V c main_v33) (V c main_arg7) (V c main_arg9) (V c main_v55) :=
  (dat1 (F := Ideal) V c).arrAt_eq_of_cover 5 _ (fun t _ => sage1_flushed V c t) sage1_cover

end Cert.KernelIdeal.RegionValue

end
-- ==== Proof.Region2Value.lean ====
/-
  The read-out region: its output array after the region, as ONE function of the operand arrays when the region
  is entered.

  The region has one grid point and every window's block is its whole array: each block index is zero on both
  axes, so an entry of a block is the same entry of its array, the point's write-back is the read-out of the three
  operand arrays, and its one block covers the output.
-/
import proofs.«127866_j88648124991032_1_alg».proof.Proof.Gen.KernelIdeal.Frame
import proofs.«127866_j88648124991032_1_alg».proof.Proof.PayloadValue

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps of the read-out region, decided over its grid: every block index is zero. -/
theorem head_index_zero : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- An entry of the pooled-features block is the same entry of its array. -/
theorem head_block0 (c : Dev nD) (t : Fin cfg2.N) (p : Fin 512) (k : Fin 64) :
    iblk2 V c 0 t (ix2 p k) = V c main_v70 (ix2 p k) := by
  obtain ⟨e0, e1, -⟩ := head_index_zero t
  unfold iblk2
  show V c main_v70 (((cfg2.win 0).blk t).view.emb (ix2 p k)) = V c main_v70 (ix2 p k)
  refine congrArg (V c main_v70) (funext fun a => Fin.ext ?_)
  match a with
  | ⟨0, _⟩ => show win2_0.index t (0 : Fin 2) * 512 + 1 * p.val = p.val; omega
  | ⟨1, _⟩ => show win2_0.index t (1 : Fin 2) * 64 + 1 * k.val = k.val; omega

/-- An entry of the weight block is the same entry of its array. -/
theorem head_block1 (c : Dev nD) (t : Fin cfg2.N) (k : Fin 64) (q : Fin 10) :
    iblk2 V c 1 t (ix2 k q) = V c main_arg10 (ix2 k q) := by
  obtain ⟨-, -, e0, e1, -⟩ := head_index_zero t
  unfold iblk2
  show V c main_arg10 (((cfg2.win 1).blk t).view.emb (ix2 k q)) = V c main_arg10 (ix2 k q)
  refine congrArg (V c main_arg10) (funext fun a => Fin.ext ?_)
  match a with
  | ⟨0, _⟩ => show win2_1.index t (0 : Fin 2) * 64 + 1 * k.val = k.val; omega
  | ⟨1, _⟩ => show win2_1.index t (1 : Fin 2) * 10 + 1 * q.val = q.val; omega

/-- An entry of the bias block is the same entry of its array. -/
theorem head_block2 (c : Dev nD) (t : Fin cfg2.N) (z : Fin 1) (q : Fin 10) :
    iblk2 V c 2 t (ix2 z q) = V c main_v71 (ix2 z q) := by
  obtain ⟨-, -, -, -, e0, e1, -⟩ := head_index_zero t
  unfold iblk2
  show V c main_v71 (((cfg2.win 2).blk t).view.emb (ix2 z q)) = V c main_v71 (ix2 z q)
  refine congrArg (V c main_v71) (funext fun a => Fin.ext ?_)
  match a with
  | ⟨0, _⟩ => show win2_2.index t (0 : Fin 2) * 1 + 1 * z.val = z.val; omega
  | ⟨1, _⟩ => show win2_2.index t (1 : Fin 2) * 10 + 1 * q.val = q.val; omega

/-- The output's block read off an array: an entry of the block is the same entry of the array. -/
theorem head_block_out (G : S512x10.Idx → EReal) (t : Fin cfg2.N) (p : Fin 512) (q : Fin 10) :
    ((cfg2.win 3).blk t).view.read (Elt Ideal) G (ix2 p q) = G (ix2 p q) := by
  obtain ⟨-, -, -, -, -, -, e0, e1⟩ := head_index_zero t
  show G (((cfg2.win 3).blk t).view.emb (ix2 p q)) = G (ix2 p q)
  refine congrArg G (funext fun a => Fin.ext ?_)
  match a with
  | ⟨0, _⟩ => show win2_3.index t (0 : Fin 2) * 512 + 1 * p.val = p.val; omega
  | ⟨1, _⟩ => show win2_3.index t (1 : Fin 2) * 10 + 1 * q.val = q.val; omega

/-- WHAT THE POINT WRITES BACK is its block of the read-out of the operand arrays as the region finds them. -/
theorem head_flushed (c : Dev nD) (t : Fin cfg2.N) :
    (dat2 (F := Ideal) V c).flushed 3 t
      = ((cfg2.win 3).blk t).view.read (Elt Ideal) (Cert.Layers.head (V c main_v70) (V c main_arg10) (V c main_v71)) := by
  show (cfg2.win 3).cut (grid2.coords t) ((dat2 V c).after 3 t) = _
  rw [after2_3]
  unfold out2_3
  rw [View.canon_unit_zero zeros2]
  simp only [View.ld_unit_zero (S := S512x64) zeros2, View.ld_unit_zero (S := S64x10) zeros2,
    View.ld_unit_zero (S := S1x10) zeros2]
  rw [pay2_eq]
  funext y
  obtain ⟨p, q, rfl⟩ : ∃ (p : Fin 512) (q : Fin 10), y = ix2 p q := ⟨y 0, y 1, eq_ix2 y⟩
  show Cert.Layers.head (iblk2 V c 0 t) (iblk2 V c 1 t) (iblk2 V c 2 t) (ix2 p q) = _
  rw [head_block_out, Cert.Layers.head_apply, Cert.Layers.head_apply, head_block2]
  refine congrArg (· + V c main_v71 (ix2 (0 : Fin 1) q)) (Finset.sum_congr rfl fun k _ => ?_)
  rw [head_block0, head_block1]

/-- An index of the output array is in the point's block iff each coordinate is in the block's range on its axis. -/
theorem head_mem_block (t : Fin cfg2.N) (i : S512x10.Idx) :
    i ∈ ((cfg2.win 3).blk t).view.set ↔ ∀ a : Fin 2, win2_3.index t a * S512x10.size a ≤ (i a).val ∧ (i a).val < win2_3.index t a * S512x10.size a + S512x10.size a := by
  show i ∈ ((View.whole main_v72).slice (win2_3.rect t)).set ↔ _
  rw [View.set_slice_whole, Rect.mem_set_unit]
  exact Iff.rfl

/-- The one point's block covers the output array. -/
theorem head_cover (i : S512x10.Idx) :
    ∃ t : Fin cfg2.N, (cfg2.win 3).flush t = true ∧ i ∈ ((cfg2.win 3).blk t).view.set := by
  have hi0 : (i 0).val < 512 := (i 0).isLt
  have hi1 : (i 1).val < 10 := (i 1).isLt
  refine ⟨t2_0, flush2_3 t2_0, ?_⟩
  obtain ⟨-, -, -, -, -, -, e0, e1⟩ := head_index_zero t2_0
  rw [head_mem_block]
  intro a
  match a with
  | ⟨0, _⟩ => show win2_3.index t2_0 (0 : Fin 2) * 512 ≤ (i 0).val ∧ (i 0).val < win2_3.index t2_0 (0 : Fin 2) * 512 + 512; omega
  | ⟨1, _⟩ => show win2_3.index t2_0 (1 : Fin 2) * 10 ≤ (i 1).val ∧ (i 1).val < win2_3.index t2_0 (1 : Fin 2) * 10 + 10; omega

/-- THE OUTPUT ARRAY after the read-out region: the read-out of the operand arrays as the region finds them. -/
theorem region2_array (c : Dev nD) :
    (dat2 (F := Ideal) V c).arrAt 3 cfg2.N = Cert.Layers.head (V c main_v70) (V c main_arg10) (V c main_v71) :=
  (dat2 (F := Ideal) V c).arrAt_eq_of_cover 3 _ (fun t _ => head_flushed V c t) head_cover

end Cert.KernelIdeal.RegionValue

end
-- ==== Proof.LibBiasRow.lean ====
/-
  A bias vector spread over the rows of a matrix, read at an entry.

  A `[b]` vector is turned into an `[a, b]` matrix by two `broadcast_in_dim`s: first to one row `[1, b]` (the vector's
  axis becomes the column axis), then that row to all `a` rows. Read at the entry `(r, q)`, the second broadcast reads
  the one row at `(0, q)` (the row axis of its operand is a unit axis) and the first reads the vector at `q`. The same
  vector RESHAPED to one row, read at `(0, q)`, is also the vector at `q`. So the matrix's entry `(r, q)` is the
  reshaped row's entry `(0, q)`: every row of the matrix is that one row. Nothing here depends on the element type or on
  the extents, and the side conditions of the three operations may be any proofs.
-/
import Idealize.ShloMosaic.Lib.Pipeline.Value
import Idealize.ShloMosaic.Lib.ValueIdx
import Idealize.ShloMosaic.Lib.ValueLayout

namespace Cert.BiasRow

open Idealize.ShloMosaic Idealize.ShloMosaic.ValueIdx

/-- A `[b]` vector broadcast to one row `[1, b]` reads, at `(u, q)`, the vector at `q`. -/
theorem row_apply {α : Type} {b : ℕ} (v : (⟨1, ![b]⟩ : Shape).Idx → α)
    (h1 : (⟨1, ![b]⟩ : Shape).BroadcastsInDim ⟨2, ![1, b]⟩ ![1]) (u : Fin 1) (q : Fin b) :
    broadcastInDim ⟨2, ![1, b]⟩ ![1] h1 v (ix2 u q) = v (ix1 q) := by
  refine broadcastInDim_apply _ h1 v (ix2 u q) (ix1 q) fun ax => ?_
  match ax with
  | ⟨0, _⟩ =>
    show q.val = if b = 1 then 0 else q.val
    split
    · have := q.isLt; omega
    · rfl

/-- A `[1, b]` row broadcast over `a` rows reads, at `(r, q)`, the row at `(0, q)`. -/
theorem rows_apply {α : Type} {a b : ℕ} (w : (⟨2, ![1, b]⟩ : Shape).Idx → α)
    (h2 : (⟨2, ![1, b]⟩ : Shape).BroadcastsInDim ⟨2, ![a, b]⟩ ![0, 1]) (r : Fin a) (q : Fin b) :
    broadcastInDim ⟨2, ![a, b]⟩ ![0, 1] h2 w (ix2 r q) = w (ix2 (0 : Fin 1) q) := by
  refine broadcastInDim_apply _ h2 w (ix2 r q) (ix2 (0 : Fin 1) q) fun ax => ?_
  match ax with
  | ⟨0, _⟩ => rfl
  | ⟨1, _⟩ =>
    show q.val = if b = 1 then 0 else q.val
    split
    · have := q.isLt; omega
    · rfl

/-- THE BIAS OVER THE ROWS: the vector broadcast to one row and then over `a` rows, read at any entry, is the vector
    reshaped to one row read at that entry's column: both are the vector at the column. -/
theorem row_over_rows_eq_cast {α : Type} {a b : ℕ} (v : (⟨1, ![b]⟩ : Shape).Idx → α)
    (hc : (⟨1, ![b]⟩ : Shape).ShapeCasts ⟨2, ![1, b]⟩)
    (h1 : (⟨1, ![b]⟩ : Shape).BroadcastsInDim ⟨2, ![1, b]⟩ ![1])
    (h2 : (⟨2, ![1, b]⟩ : Shape).BroadcastsInDim ⟨2, ![a, b]⟩ ![0, 1])
    (i : (⟨2, ![a, b]⟩ : Shape).Idx) :
    broadcastInDim ⟨2, ![a, b]⟩ ![0, 1] h2 (broadcastInDim ⟨2, ![1, b]⟩ ![1] h1 v) i
      = shapeCast ⟨2, ![1, b]⟩ v hc (ix2 (0 : Fin 1) (i 1)) := by
  obtain ⟨r, q, rfl⟩ : ∃ (r : Fin a) (q : Fin b), i = ix2 r q := ⟨i 0, i 1, eq_ix2 i⟩
  show _ = shapeCast ⟨2, ![1, b]⟩ v hc (ix2 (0 : Fin 1) q)
  rw [rows_apply, row_apply, shapeCast_a_1a_apply]

end Cert.BiasRow
-- ==== Proof.ReferenceLayers.lean ====
/-
  The reference program's dense layers, as it spells them, are the layer functions of `Layers.lean`.

  Each message-passing layer of the reference ends with the same six array operations: the aggregated neighbourhood
  times its weight (a `dot_general`), plus the bias vector spread over the rows (two `broadcast_in_dim`s), plus the
  node's own features times their weight (a second `dot_general`), clipped below by a zero spread over the whole
  matrix (`maximum`). Entry by entry that is `max ((∑ₖ mean (r, k) · wl (k, c) + b c) + ∑ₖ x (r, k) · wr (k, c)) 0`:
  a plain `dot_general` on the extended reals is the sum of products over the contraction index, the pointwise
  operations act entry by entry, every row of the spread bias is the bias vector reshaped to one row, and the
  spread zero is zero everywhere. The read-out is the same with one product, no clipping.
  The sums are never reordered: both sides are the same sums of the same products.
-/
import proofs.«127866_j88648124991032_1_alg».proof.Proof.Gen.ReferenceIdeal
import proofs.«127866_j88648124991032_1_alg».proof.Proof.Layers
import proofs.«127866_j88648124991032_1_alg».proof.Proof.LibRowsTimes
import proofs.«127866_j88648124991032_1_alg».proof.Proof.LibBiasRow
import Idealize.ShloMosaic.Lib.Pipeline.Value
import Idealize.ShloMosaic.Lib.ValueIdx
import Idealize.ShloMosaic.PureOps.Ideal.Laws

noncomputable section

namespace Cert.ReferenceIdeal.LayerValue

open Cert.ReferenceIdeal Cert.ReferenceIdeal.Gen Idealize.ShloMosaic Idealize.ShloMosaic.ValueIdx

/-- The float zero spread from a scalar over any shape reads `0` at every index. -/
theorem zeros_apply (t : Shape) (dims : Fin S_.rank → Fin t.rank) (h : S_.BroadcastsInDim t dims) (i : t.Idx) :
    broadcastInDim t dims h (constant (F := Ideal) S_ .f32 0x00000000#32) i = (0 : EReal) :=
  (broadcastInDim_apply dims h (constant (F := Ideal) S_ .f32 0x00000000#32) i (fun a => a.elim0)
    (fun a => a.elim0)).trans Ideal.ofBits_zero_f32

/-- One layer's dense step, as the reference spells it, is `Layers.sage` of its operands, the bias vector reshaped
    to one row. -/
theorem sage_ref (mean x : FVec Ideal S50000x64 .f32) (wl wr : FVec Ideal S64x64 .f32) (bl : FVec Ideal S64 .f32)
    (hc : S64.ShapeCasts S1x64) :
    maximumf
        (addf
          (addf (Host.dotGeneral (F := Ideal) dot_S50000x64_S64x64_S50000x64_1_0_0_1_n_n none mean wl)
            (broadcastInDim S50000x64 ![0, 1] bcast_S1x64_S50000x64_0_1
              (broadcastInDim S1x64 ![1] bcast_S64_S1x64_1 bl)))
          (Host.dotGeneral (F := Ideal) dot_S50000x64_S64x64_S50000x64_1_0_0_1_n_n none x wr))
        (broadcastInDim S50000x64 ![] bcast_S_S50000x64 (constant (F := Ideal) S_ .f32 0x00000000#32))
      = Cert.Layers.sage mean x wl wr (shapeCast S1x64 bl hc) := by
  have e1 := RowsTimes.hostDot_eq dot_S50000x64_S64x64_S50000x64_1_0_0_1_n_n rfl rfl rfl rfl rfl rfl rfl rfl
    none mean wl
  have e2 := RowsTimes.hostDot_eq dot_S50000x64_S64x64_S50000x64_1_0_0_1_n_n rfl rfl rfl rfl rfl rfl rfl rfl
    none x wr
  rw [e1, e2]
  funext i
  have eb := Cert.BiasRow.row_over_rows_eq_cast bl hc bcast_S64_S1x64_1 bcast_S1x64_S50000x64_0_1 i
  have ez := zeros_apply S50000x64 ![] bcast_S_S50000x64 i
  simp only [maximumf, addf, Ideal.maximumf_def, Ideal.addf_def]
  rw [eb, ez]
  rfl

/-- The read-out, as the reference spells it, is `Layers.head` of its operands, the bias vector reshaped to one
    row. -/
theorem head_ref (p : FVec Ideal S512x64 .f32) (w : FVec Ideal S64x10 .f32) (b : FVec Ideal S10 .f32)
    (hc : S10.ShapeCasts S1x10) :
    addf (Host.dotGeneral (F := Ideal) dot_S512x64_S64x10_S512x10_1_0_0_1_n_n none p w)
        (broadcastInDim S512x10 ![0, 1] bcast_S1x10_S512x10_0_1 (broadcastInDim S1x10 ![1] bcast_S10_S1x10_1 b))
      = Cert.Layers.head p w (shapeCast S1x10 b hc) := by
  have e1 := RowsTimes.hostDot_eq dot_S512x64_S64x10_S512x10_1_0_0_1_n_n rfl rfl rfl rfl rfl rfl rfl rfl
    none p w
  rw [e1]
  funext i
  have eb := Cert.BiasRow.row_over_rows_eq_cast b hc bcast_S10_S1x10_1 bcast_S1x10_S512x10_0_1 i
  simp only [addf, Ideal.addf_def]
  rw [eb]
  rfl

end Cert.ReferenceIdeal.LayerValue

end
-- ==== Proof.KernelValue.lean ====
/-
  The idealized kernel program's result is the network function of its arguments.

  The program's buffer contents are followed from the launch through its three stretches of host operations and
  its three kernel regions. Each stretch leaves, in the buffers its region reads, the graph functions of what it
  found (the embedded features and their neighbour mean; the neighbour mean of the first layer; the per-graph mean
  of the second layer), and passes the arguments on untouched. Each region leaves in its output array the dense
  layer of the arrays it reads — the same function, entry by entry, as the reference's spelling of that layer,
  because on the extended reals a sum of three terms does not depend on the order in which they are added — and
  touches no other buffer. Composing the six steps gives `network` of the twelve arguments in the result buffer.
-/
import proofs.«127866_j88648124991032_1_alg».proof.Proof.Gen.KernelIdeal.Frame
import proofs.«127866_j88648124991032_1_alg».proof.Proof.KernelRun
import proofs.«127866_j88648124991032_1_alg».proof.Proof.HostStretches
import proofs.«127866_j88648124991032_1_alg».proof.Proof.Region0Value
import proofs.«127866_j88648124991032_1_alg».proof.Proof.Region1Value
import proofs.«127866_j88648124991032_1_alg».proof.Proof.Region2Value
import proofs.«127866_j88648124991032_1_alg».proof.Proof.ReferenceLayers
import proofs.«127866_j88648124991032_1_alg».proof.Proof.GraphOps

set_option maxRecDepth 16384

noncomputable section

namespace Cert.KernelIdeal.NetworkValue

open Cert.KernelIdeal Cert.KernelIdeal.Gen Cert.GraphOps
open Idealize.ShloMosaic Idealize.ShloMosaic.TcCoe Idealize.SL.Sem

variable (m : (ℓ : Loc nD τ sig) → Buf (Elt Ideal) ℓ) (ρ : Dev nD → PrngReg) (c : Dev nD)

/-! ## After the first region -/

/-- The first region's output array holds the first layer. -/
theorem at4_layer : W4 m ρ c (Proc.devRef .tc main_v33) = (layerOne (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (W4_arr m ρ c 5).trans ?_
  refine (Cert.KernelIdeal.RegionValue.region0_array (V3 m ρ) c).trans ?_
  have h1 : V3 m ρ c main_v31 = neighbourMean (embedRows (m ((c : Thread nD τ).loc main_arg0)) (m ((c : Thread nD τ).loc main_arg3))) (edgeRow0 (m ((c : Thread nD τ).loc main_arg1))) (edgeRow1 (m ((c : Thread nD τ).loc main_arg1))) :=
    Stretch.mean0 (W0 m ρ c)
  have h2 : V3 m ρ c main_v6 = embedRows (m ((c : Thread nD τ).loc main_arg0)) (m ((c : Thread nD τ).loc main_arg3)) := Stretch.features0 (W0 m ρ c)
  have h3 : V3 m ρ c main_arg4 = (m ((c : Thread nD τ).loc main_arg4)) := Stretch.keep0_main_arg4 (W0 m ρ c)
  have h4 : V3 m ρ c main_arg6 = (m ((c : Thread nD τ).loc main_arg6)) := Stretch.keep0_main_arg6 (W0 m ρ c)
  have h5 : V3 m ρ c main_v32 = shapeCast S1x64 (m ((c : Thread nD τ).loc main_arg5)) shapeCasts_S64_S1x64 := Stretch.bias0 (W0 m ρ c)
  rw [h1, h2, h3, h4, h5]
  unfold layerOne denseRef
  exact (Cert.ReferenceIdeal.LayerValue.sage_ref _ _ _ _ _ _).symm

theorem at4_sources : W4 m ρ c (Proc.devRef .tc main_v8) = edgeRow0 (m ((c : Thread nD τ).loc main_arg1)) :=
  (W4_of_ne m ρ c main_v8 (by decide)).trans (Stretch.sources0 (W0 m ρ c))
theorem at4_targets : W4 m ρ c (Proc.devRef .tc main_v10) = edgeRow1 (m ((c : Thread nD τ).loc main_arg1)) :=
  (W4_of_ne m ρ c main_v10 (by decide)).trans (Stretch.targets0 (W0 m ρ c))
theorem at4_arg2 : W4 m ρ c (Proc.devRef .tc main_arg2) = (m ((c : Thread nD τ).loc main_arg2)) :=
  (W4_of_ne m ρ c main_arg2 (by decide)).trans (Stretch.keep0_main_arg2 (W0 m ρ c))
theorem at4_arg7 : W4 m ρ c (Proc.devRef .tc main_arg7) = (m ((c : Thread nD τ).loc main_arg7)) :=
  (W4_of_ne m ρ c main_arg7 (by decide)).trans (Stretch.keep0_main_arg7 (W0 m ρ c))
theorem at4_arg8 : W4 m ρ c (Proc.devRef .tc main_arg8) = (m ((c : Thread nD τ).loc main_arg8)) :=
  (W4_of_ne m ρ c main_arg8 (by decide)).trans (Stretch.keep0_main_arg8 (W0 m ρ c))
theorem at4_arg9 : W4 m ρ c (Proc.devRef .tc main_arg9) = (m ((c : Thread nD τ).loc main_arg9)) :=
  (W4_of_ne m ρ c main_arg9 (by decide)).trans (Stretch.keep0_main_arg9 (W0 m ρ c))
theorem at4_arg10 : W4 m ρ c (Proc.devRef .tc main_arg10) = (m ((c : Thread nD τ).loc main_arg10)) :=
  (W4_of_ne m ρ c main_arg10 (by decide)).trans (Stretch.keep0_main_arg10 (W0 m ρ c))
theorem at4_arg11 : W4 m ρ c (Proc.devRef .tc main_arg11) = (m ((c : Thread nD τ).loc main_arg11)) :=
  (W4_of_ne m ρ c main_arg11 (by decide)).trans (Stretch.keep0_main_arg11 (W0 m ρ c))

/-! ## After the second region -/

/-- The second region's output array holds the second layer. -/
theorem at8_layer : W8 m ρ c (Proc.devRef .tc main_v56) = (layerTwo (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W8_arr m ρ c 5).trans ?_
  refine (Cert.KernelIdeal.RegionValue.region1_array (V7 m ρ) c).trans ?_
  have h1 : V7 m ρ c main_v54 = neighbourMean (layerOne (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (edgeRow0 (m ((c : Thread nD τ).loc main_arg1))) (edgeRow1 (m ((c : Thread nD τ).loc main_arg1))) := by
    refine (Stretch.mean1 (W4 m ρ c)).trans ?_
    rw [at4_layer m ρ c, at4_sources m ρ c, at4_targets m ρ c]
  have h2 : V7 m ρ c main_v33 = (layerOne (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := (Stretch.keep1_main_v33 (W4 m ρ c)).trans (at4_layer m ρ c)
  have h3 : V7 m ρ c main_arg7 = (m ((c : Thread nD τ).loc main_arg7)) := (Stretch.keep1_main_arg7 (W4 m ρ c)).trans (at4_arg7 m ρ c)
  have h4 : V7 m ρ c main_arg9 = (m ((c : Thread nD τ).loc main_arg9)) := (Stretch.keep1_main_arg9 (W4 m ρ c)).trans (at4_arg9 m ρ c)
  have h5 : V7 m ρ c main_v55 = shapeCast S1x64 (m ((c : Thread nD τ).loc main_arg8)) shapeCasts_S64_S1x64 := by
    refine (Stretch.bias1 (W4 m ρ c)).trans ?_
    rw [at4_arg8 m ρ c]
  rw [h1, h2, h3, h4, h5]
  unfold layerTwo denseRef
  exact (Cert.ReferenceIdeal.LayerValue.sage_ref _ _ _ _ _ _).symm

theorem at8_arg2 : W8 m ρ c (Proc.devRef .tc main_arg2) = (m ((c : Thread nD τ).loc main_arg2)) :=
  (W8_of_ne m ρ c main_arg2 (by decide)).trans ((Stretch.keep1_main_arg2 (W4 m ρ c)).trans (at4_arg2 m ρ c))
theorem at8_arg10 : W8 m ρ c (Proc.devRef .tc main_arg10) = (m ((c : Thread nD τ).loc main_arg10)) :=
  (W8_of_ne m ρ c main_arg10 (by decide)).trans ((Stretch.keep1_main_arg10 (W4 m ρ c)).trans (at4_arg10 m ρ c))
theorem at8_arg11 : W8 m ρ c (Proc.devRef .tc main_arg11) = (m ((c : Thread nD τ).loc main_arg11)) :=
  (W8_of_ne m ρ c main_arg11 (by decide)).trans ((Stretch.keep1_main_arg11 (W4 m ρ c)).trans (at4_arg11 m ρ c))

/-! ## After the third region -/

/-- The third region's output array, the program's result, holds the network's class scores. -/
theorem at12_result : W12 m ρ c (Proc.devRef .tc main_v72) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W12_arr m ρ c 3).trans ?_
  refine (Cert.KernelIdeal.RegionValue.region2_array (V11 m ρ) c).trans ?_
  have h1 : V11 m ρ c main_v70 = graphMean (layerTwo (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg2)) := by
    refine (Stretch.mean2 (W8 m ρ c)).trans ?_
    rw [at8_layer m ρ c, at8_arg2 m ρ c]
  have h2 : V11 m ρ c main_arg10 = (m ((c : Thread nD τ).loc main_arg10)) := (Stretch.keep2_main_arg10 (W8 m ρ c)).trans (at8_arg10 m ρ c)
  have h3 : V11 m ρ c main_v71 = shapeCast S1x10 (m ((c : Thread nD τ).loc main_arg11)) shapeCasts_S10_S1x10 := by
    refine (Stretch.bias2 (W8 m ρ c)).trans ?_
    rw [at8_arg11 m ρ c]
  rw [h1, h2, h3]
  unfold network readoutRef
  exact (Cert.ReferenceIdeal.LayerValue.head_ref _ _ _ _).symm

/-! ## The run -/

/-- Every weakly fair execution of the program terminates, nothing faulting, with the result buffer at the network's
    class scores of the arguments and the arguments as launched. -/
theorem run_network : θ_run defs (onTc (τ := τ) (main (F := Ideal))) ⟨m, fun _ => 0, ρ⟩ (fun r => ∀ c : Dev nD,
      r.2.mem ((c.tc : Thread nD τ).loc main_v72) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (at12_result m ρ c), (h c).2⟩)
    (Cert.KernelIdeal.RunValue.run_result (F := Ideal) m ρ)

end Cert.KernelIdeal.NetworkValue

end
-- ==== Proof.lean ====
/-
  The certificate of a two-layer graph network with a per-graph mean pool and a linear read-out.

  The kernel program computes the irregular steps (the embedding lookup, the gather of the neighbours' features and
  their scatter-sum to the nodes, the counts, the per-graph pooling) with host operations and the three dense steps
  — `max ((mean·Wl + x·Wr) + b) 0` twice over blocks of 10000 rows, then `pooled·Wout + b` — in kernel regions; the
  reference computes everything with host operations and the dense steps as `max ((mean·Wl + b) + x·Wr) 0` and
  `pooled·Wout + b`. At the ideal instance a change of float format is the identity, the matrix unit's product into a
  zero accumulator and the host's `dot_general` are the same sum of products, and the sum of the three terms of a
  dense step does not depend on the order in which they are added (the extended reals are a commutative monoid under
  addition; no finiteness is used). So both programs end with the same function of the twelve arguments in the result
  buffer: `GraphOps.network`.

  The three frames: the two kernel programs' are their generated frame certificates; the reference's is its run with
  the result dropped. The kernel's idealization rewrote no operation, so there is nothing to preserve. The algebraic
  claim: the kernel program's run with the result read (`KernelIdeal.NetworkValue.run_network`) beside the reference's
  (`ReferenceIdeal.NetworkValue.run_network`), the arguments' agreement rewritten.
-/
import proofs.«127866_j88648124991032_1_alg».proof.Defs
import proofs.«127866_j88648124991032_1_alg».proof.Proof.Gen.Kernel
import proofs.«127866_j88648124991032_1_alg».proof.Proof.Gen.Kernel.Skeleton
import proofs.«127866_j88648124991032_1_alg».proof.Proof.Gen.Kernel.Launch
import proofs.«127866_j88648124991032_1_alg».proof.Proof.Gen.Kernel.Points
import proofs.«127866_j88648124991032_1_alg».proof.Proof.Gen.Kernel.Frame
import proofs.«127866_j88648124991032_1_alg».proof.Proof.Gen.KernelIdeal
import proofs.«127866_j88648124991032_1_alg».proof.Proof.Gen.KernelIdeal.Skeleton
import proofs.«127866_j88648124991032_1_alg».proof.Proof.Gen.KernelIdeal.Launch
import proofs.«127866_j88648124991032_1_alg».proof.Proof.Gen.KernelIdeal.Points
import proofs.«127866_j88648124991032_1_alg».proof.Proof.Gen.KernelIdeal.Frame
import proofs.«127866_j88648124991032_1_alg».proof.Proof.Gen.ReferenceIdeal
import proofs.«127866_j88648124991032_1_alg».proof.Proof.Gen.Pre_finite_inputs
import proofs.«127866_j88648124991032_1_alg».proof.Proof.RefRun
import proofs.«127866_j88648124991032_1_alg».proof.Proof.RefValue
import proofs.«127866_j88648124991032_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with `network` of the arguments in the result buffer; the arguments agree. -/
theorem algebraic : Cert.algebraic_KernelIdeal_ReferenceIdeal := by
  intro m ρ m' ρ' _ hagree
  refine ⟨fun c => Cert.GraphOps.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.NetworkValue.run_network m ρ, ?_⟩
  refine (θ_run Cert.ReferenceIdeal.defs _ _).mono (fun _ h c => ⟨(h c).1.trans ?_, (h c).2⟩)
    (Cert.ReferenceIdeal.NetworkValue.run_network (F := Ideal) m' ρ')
  obtain ⟨e0, e1, e2, e3, e4, e5, e6, e7, e8, e9, e10, e11⟩ := hagree c
  rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
